-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x6400000 : Shape := ⟨2, ![2, 6400000]⟩
abbrev S6400000x14 : Shape := ⟨2, ![6400000, 14]⟩
abbrev S1x1 : Shape := ⟨2, ![1, 1]⟩
abbrev S100000 : Shape := ⟨1, ![100000]⟩
abbrev S15x14 : Shape := ⟨2, ![15, 14]⟩
abbrev S14 : Shape := ⟨1, ![14]⟩
abbrev S14x14 : Shape := ⟨2, ![14, 14]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S6400000x14 : S_.BroadcastsInDim S6400000x14 (![] : Fin 0 → Fin S6400000x14.rank)
  reducesTo_S6400000x14_S_d0_1 : S6400000x14.ReducesTo [0, 1] S_
  bcast_S_S1x1 : S_.BroadcastsInDim S1x1 (![] : Fin 0 → Fin S1x1.rank)
  reducesTo_S1x1_S_d0_1 : S1x1.ReducesTo [0, 1] S_
  bcast_S_S15x14 : S_.BroadcastsInDim S15x14 (![] : Fin 0 → Fin S15x14.rank)
  reducesTo_S15x14_S_d0_1 : S15x14.ReducesTo [0, 1] S_
  bcast_S_S14 : S_.BroadcastsInDim S14 (![] : Fin 0 → Fin S14.rank)
  reducesTo_S14_S_d0 : S14.ReducesTo [0] S_
  bcast_S_S14x14 : S_.BroadcastsInDim S14x14 (![] : Fin 0 → Fin S14x14.rank)
  reducesTo_S14x14_S_d0_1 : S14x14.ReducesTo [0, 1] S_

variable [Facts]

def fn_part3 {F : FTy → Type} [FloatOps F] (main_v48 : IVec S_ 1) (main_v49 : FVec F S14 .f32) (main_v50 : FVec F S14 .f32) : IVec S_ 1 :=
  let main_v51 : IVec S14 1 := cmpf .olt main_v49 main_v50
  let main_c_19 : IVec S_ 1 := constantI S_ 1 1#1
  let main_v52 : IVec S_ 1 := (fun x v => Host.reduce IntOp.andi x v reducesTo_S14_S_d0 h_S_) main_v51 main_c_19
  let main_v53 : IVec S_ 1 := andi main_v48 main_v52
  main_v53

def fn_part2 {F : FTy → Type} [FloatOps F] (main_arg9 : FVec F S15x14 .f32) (main_arg10 : FVec F S14 .f32) (main_arg11 : FVec F S14x14 .f32) (main_arg12 : FVec F S14 .f32) (main_v33 : IVec S_ 1) : IVec S_ 1 :=
  let main_v34 : FVec F S15x14 .f32 := Host.absf main_arg9
  let main_cst_12 : FVec F S_ .f32 := constant S_ .f32 0x7F800000#32
  let main_v35 : FVec F S15x14 .f32 := broadcastInDim S15x14 ![] bcast_S_S15x14 main_cst_12
  let main_v36 : IVec S15x14 1 := cmpf .olt main_v34 main_v35
  let main_c_13 : IVec S_ 1 := constantI S_ 1 1#1
  let main_v37 : IVec S_ 1 := (fun x v => Host.reduce IntOp.andi x v reducesTo_S15x14_S_d0_1 h_S_) main_v36 main_c_13
  let main_v38 : IVec S_ 1 := andi main_v33 main_v37
  let main_v39 : FVec F S14 .f32 := Host.absf main_arg10
  let main_cst_14 : FVec F S_ .f32 := constant S_ .f32 0x7F800000#32
  let main_v40 : FVec F S14 .f32 := broadcastInDim S14 ![] bcast_S_S14 main_cst_14
  let main_v41 : IVec S14 1 := cmpf .olt main_v39 main_v40
  let main_c_15 : IVec S_ 1 := constantI S_ 1 1#1
  let main_v42 : IVec S_ 1 := (fun x v => Host.reduce IntOp.andi x v reducesTo_S14_S_d0 h_S_) main_v41 main_c_15
  let main_v43 : IVec S_ 1 := andi main_v38 main_v42
  let main_v44 : FVec F S14x14 .f32 := Host.absf main_arg11
  let main_cst_16 : FVec F S_ .f32 := constant S_ .f32 0x7F800000#32
  let main_v45 : FVec F S14x14 .f32 := broadcastInDim S14x14 ![] bcast_S_S14x14 main_cst_16
  let main_v46 : IVec S14x14 1 := cmpf .olt main_v44 main_v45
  let main_c_17 : IVec S_ 1 := constantI S_ 1 1#1
  let main_v47 : IVec S_ 1 := (fun x v => Host.reduce IntOp.andi x v reducesTo_S14x14_S_d0_1 h_S_) main_v46 main_c_17
  let main_v48 : IVec S_ 1 := andi main_v43 main_v47
  let main_v49 : FVec F S14 .f32 := Host.absf main_arg12
  let main_cst_18 : FVec F S_ .f32 := constant S_ .f32 0x7F800000#32
  let main_v50 : FVec F S14 .f32 := broadcastInDim S14 ![] bcast_S_S14 main_cst_18
  fn_part3 (F := F) main_v48 main_v49 main_v50

def fn_part1 {F : FTy → Type} [FloatOps F] (main_arg6 : FVec F S14 .f32) (main_arg7 : FVec F S14x14 .f32) (main_arg8 : FVec F S14 .f32) (main_arg9 : FVec F S15x14 .f32) (main_arg10 : FVec F S14 .f32) (main_arg11 : FVec F S14x14 .f32) (main_arg12 : FVec F S14 .f32) (main_v13 : IVec S_ 1) (main_v16 : IVec S15x14 1) : IVec S_ 1 :=
  let main_c_5 : IVec S_ 1 := constantI S_ 1 1#1
  let main_v17 : IVec S_ 1 := (fun x v => Host.reduce IntOp.andi x v reducesTo_S15x14_S_d0_1 h_S_) main_v16 main_c_5
  let main_v18 : IVec S_ 1 := andi main_v13 main_v17
  let main_v19 : FVec F S14 .f32 := Host.absf main_arg6
  let main_cst_6 : FVec F S_ .f32 := constant S_ .f32 0x7F800000#32
  let main_v20 : FVec F S14 .f32 := broadcastInDim S14 ![] bcast_S_S14 main_cst_6
  let main_v21 : IVec S14 1 := cmpf .olt main_v19 main_v20
  let main_c_7 : IVec S_ 1 := constantI S_ 1 1#1
  let main_v22 : IVec S_ 1 := (fun x v => Host.reduce IntOp.andi x v reducesTo_S14_S_d0 h_S_) main_v21 main_c_7
  let main_v23 : IVec S_ 1 := andi main_v18 main_v22
  let main_v24 : FVec F S14x14 .f32 := Host.absf main_arg7
  let main_cst_8 : FVec F S_ .f32 := constant S_ .f32 0x7F800000#32
  let main_v25 : FVec F S14x14 .f32 := broadcastInDim S14x14 ![] bcast_S_S14x14 main_cst_8
  let main_v26 : IVec S14x14 1 := cmpf .olt main_v24 main_v25
  let main_c_9 : IVec S_ 1 := constantI S_ 1 1#1
  let main_v27 : IVec S_ 1 := (fun x v => Host.reduce IntOp.andi x v reducesTo_S14x14_S_d0_1 h_S_) main_v26 main_c_9
  let main_v28 : IVec S_ 1 := andi main_v23 main_v27
  let main_v29 : FVec F S14 .f32 := Host.absf main_arg8
  let main_cst_10 : FVec F S_ .f32 := constant S_ .f32 0x7F800000#32
  let main_v30 : FVec F S14 .f32 := broadcastInDim S14 ![] bcast_S_S14 main_cst_10
  let main_v31 : IVec S14 1 := cmpf .olt main_v29 main_v30
  let main_c_11 : IVec S_ 1 := constantI S_ 1 1#1
  let main_v32 : IVec S_ 1 := (fun x v => Host.reduce IntOp.andi x v reducesTo_S14_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x4 .f32) (main_arg1 : IVec S2x6400000 32) (main_arg2 : FVec F S6400000x14 .f32) (main_arg3 : FVec F S1x1 .f32) (main_arg4 : IVec S100000 32) (main_arg5 : FVec F S15x14 .f32) (main_arg6 : FVec F S14 .f32) (main_arg7 : FVec F S14x14 .f32) (main_arg8 : FVec F S14 .f32) (main_arg9 : FVec F S15x14 .f32) (main_arg10 : FVec F S14 .f32) (main_arg11 : FVec F S14x14 .f32) (main_arg12 : FVec F S14 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S6400000x14 .f32 := Host.absf main_arg2
  let main_cst_0 : FVec F S_ .f32 := constant S_ .f32 0x7F800000#32
  let main_v5 : FVec F S6400000x14 .f32 := broadcastInDim S6400000x14 ![] bcast_S_S6400000x14 main_cst_0
  let main_v6 : IVec S6400000x14 1 := cmpf .olt main_v4 main_v5
  let main_c_1 : IVec S_ 1 := constantI S_ 1 1#1
  let main_v7 : IVec S_ 1 := (fun x v => Host.reduce IntOp.andi x v reducesTo_S6400000x14_S_d0_1 h_S_) main_v6 main_c_1
  let main_v8 : IVec S_ 1 := andi main_v3 main_v7
  let main_v9 : FVec F S1x1 .f32 := Host.absf main_arg3
  let main_cst_2 : FVec F S_ .f32 := constant S_ .f32 0x7F800000#32
  let main_v10 : FVec F S1x1 .f32 := broadcastInDim S1x1 ![] bcast_S_S1x1 main_cst_2
  let main_v11 : IVec S1x1 1 := cmpf .olt main_v9 main_v10
  let main_c_3 : IVec S_ 1 := constantI S_ 1 1#1
  let main_v12 : IVec S_ 1 := (fun x v => Host.reduce IntOp.andi x v reducesTo_S1x1_S_d0_1 h_S_) main_v11 main_c_3
  let main_v13 : IVec S_ 1 := andi main_v8 main_v12
  let main_v14 : FVec F S15x14 .f32 := Host.absf main_arg5
  let main_cst_4 : FVec F S_ .f32 := constant S_ .f32 0x7F800000#32
  let main_v15 : FVec F S15x14 .f32 := broadcastInDim S15x14 ![] bcast_S_S15x14 main_cst_4
  let main_v16 : IVec S15x14 1 := cmpf .olt main_v14 main_v15
  fn_part1 (F := F) main_arg6 main_arg7 main_arg8 main_arg9 main_arg10 main_arg11 main_arg12 main_v13 main_v16
-- ==== Kernel.lean ====
abbrev S100000x4 : Shape := ⟨2, ![100000, 4]⟩
abbrev S2x6400000 : Shape := ⟨2, ![2, 6400000]⟩
abbrev S6400000x14 : Shape := ⟨2, ![6400000, 14]⟩
abbrev S1x1 : Shape := ⟨2, ![1, 1]⟩
abbrev S100000 : Shape := ⟨1, ![100000]⟩
abbrev S15x14 : Shape := ⟨2, ![15, 14]⟩
abbrev S14 : Shape := ⟨1, ![14]⟩
abbrev S14x14 : Shape := ⟨2, ![14, 14]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S6400000x4 : Shape := ⟨2, ![6400000, 4]⟩
abbrev S6400x4 : Shape := ⟨2, ![6400, 4]⟩
abbrev S6400x14 : Shape := ⟨2, ![6400, 14]⟩
abbrev S6400 : Shape := ⟨1, ![6400]⟩
abbrev S6400x1 : Shape := ⟨2, ![6400, 1]⟩
abbrev S6400x15 : Shape := ⟨2, ![6400, 15]⟩
abbrev S1x14 : Shape := ⟨2, ![1, 14]⟩
abbrev S100000x14 : Shape := ⟨2, ![100000, 14]⟩
abbrev S100000x1 : Shape := ⟨2, ![100000, 1]⟩
abbrev S5000x4 : Shape := ⟨2, ![5000, 4]⟩
abbrev S5000x14 : Shape := ⟨2, ![5000, 14]⟩
abbrev S5000 : Shape := ⟨1, ![5000]⟩
abbrev S5000x1 : Shape := ⟨2, ![5000, 1]⟩
abbrev S5000x15 : Shape := ⟨2, ![5000, 15]⟩

abbrev nBuf : Space → Nat
  | .hbm => 45
  | .vmem => 20
  | .smem => 0
  | _ => 0

abbrev bufTy : (tb : Table) → Fin (tcTables nBuf tb) → BufTy
  | .hbm, ⟨0, _⟩ => ⟨S100000x4, .f32⟩
  | .hbm, ⟨1, _⟩ => ⟨S2x6400000, .i32⟩
  | .hbm, ⟨2, _⟩ => ⟨S6400000x14, .f32⟩
  | .hbm, ⟨3, _⟩ => ⟨S1x1, .f32⟩
  | .hbm, ⟨4, _⟩ => ⟨S100000, .i32⟩
  | .hbm, ⟨5, _⟩ => ⟨S15x14, .f32⟩
  | .hbm, ⟨6, _⟩ => ⟨S14, .f32⟩
  | .hbm, ⟨7, _⟩ => ⟨S14x14, .f32⟩
  | .hbm, ⟨8, _⟩ => ⟨S14, .f32⟩
  | .hbm, ⟨9, _⟩ => ⟨S15x14, .f32⟩
  | .hbm, ⟨10, _⟩ => ⟨S14, .f32⟩
  | .hbm, ⟨11, _⟩ => ⟨S14x14, .f32⟩
  | .hbm, ⟨12, _⟩ => ⟨S14, .f32⟩
  | .hbm, ⟨13, _⟩ => ⟨S1x6400000, .i32⟩
  | .hbm, ⟨14, _⟩ => ⟨S6400000, .i32⟩
  | .hbm, ⟨15, _⟩ => ⟨S1x6400000, .i32⟩
  | .hbm, ⟨16, _⟩ => ⟨S6400000, .i32⟩
  | .hbm, ⟨17, _⟩ => ⟨S_, .i32⟩
  | .hbm, ⟨18, _⟩ => ⟨S6400000, .i32⟩
  | .hbm, ⟨19, _⟩ => ⟨S6400000, .i1⟩
  | .hbm, ⟨20, _⟩ => ⟨S_, .i32⟩
  | .hbm, ⟨21, _⟩ => ⟨S6400000, .i32⟩
  | .hbm, ⟨22, _⟩ => ⟨S6400000, .i32⟩
  | .hbm, ⟨23, _⟩ => ⟨S6400000, .i32⟩
  | .hbm, ⟨24, _⟩ => ⟨S6400000x1, .i32⟩
  | .hbm, ⟨25, _⟩ => ⟨S6400000x4, .f32⟩
  | .hbm, ⟨26, _⟩ => ⟨S6400000x14, .f32⟩
  | .hbm, ⟨27, _⟩ => ⟨S_, .f32⟩
  | .hbm, ⟨28, _⟩ => ⟨S100000x14, .f32⟩
  | .hbm, ⟨29, _⟩ => ⟨S6400000x1, .i32⟩
  | .hbm, ⟨30, _⟩ => ⟨S100000x14, .f32⟩
  | .hbm, ⟨31, _⟩ => ⟨S_, .f32⟩
  | .hbm, ⟨32, _⟩ => ⟨S6400000, .f32⟩
  | .hbm, ⟨33, _⟩ => ⟨S_, .f32⟩
  | .hbm, ⟨34, _⟩ => ⟨S100000, .f32⟩
  | .hbm, ⟨35, _⟩ => ⟨S6400000x1, .i32⟩
  | .hbm, ⟨36, _⟩ => ⟨S100000, .f32⟩
  | .hbm, ⟨37, _⟩ => ⟨S_, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S100000x1, .f32⟩
  | .hbm, ⟨42, _⟩ => ⟨S100000x14, .f32⟩
  | .hbm, ⟨43, _⟩ => ⟨S100000x14, .f32⟩
  | .hbm, ⟨44, _⟩ => ⟨S100000x14, .f32⟩
  | .local _ .vmem, ⟨0, _⟩ => ⟨S6400x4, .f32⟩
  | .local _ .vmem, ⟨1, _⟩ => ⟨S6400x4, .f32⟩
  | .local _ .vmem, ⟨2, _⟩ => ⟨S6400x14, .f32⟩
  | .local _ .vmem, ⟨3, _⟩ => ⟨S6400x14, .f32⟩
  | .local _ .vmem, ⟨4, _⟩ => ⟨S15x14, .f32⟩
  | .local _ .vmem, ⟨5, _⟩ => ⟨S14, .f32⟩
  | .local _ .vmem, ⟨6, _⟩ => ⟨S14x14, .f32⟩
  | .local _ .vmem, ⟨7, _⟩ => ⟨S14, .f32⟩
  | .local _ .vmem, ⟨8, _⟩ => ⟨S6400x14, .f32⟩
  | .local _ .vmem, ⟨9, _⟩ => ⟨S6400x14, .f32⟩
  | .local _ .vmem, ⟨10, _⟩ => ⟨S5000x4, .f32⟩
  | .local _ .vmem, ⟨11, _⟩ => ⟨S5000x4, .f32⟩
  | .local _ .vmem, ⟨12, _⟩ => ⟨S5000x14, .f32⟩
  | .local _ .vmem, ⟨13, _⟩ => ⟨S5000x14, .f32⟩
  | .local _ .vmem, ⟨14, _⟩ => ⟨S15x14, .f32⟩
  | .local _ .vmem, ⟨15, _⟩ => ⟨S14, .f32⟩
  | .local _ .vmem, ⟨16, _⟩ => ⟨S14x14, .f32⟩
  | .local _ .vmem, ⟨17, _⟩ => ⟨S14, .f32⟩
  | .local _ .vmem, ⟨18, _⟩ => ⟨S5000x14, .f32⟩
  | .local _ .vmem, ⟨19, _⟩ => ⟨S5000x14, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![1000], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x14 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S15x14 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S14 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S14x14 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S14 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S6400x14 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x14 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S15x14 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S14 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S14x14 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S14 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x14 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  inb_S6400x4_S6400x4_0_0 : ∀ a, (![0, 0] : Fin 2 → Nat) a + S6400x4.size a ≤ S6400x4.size a
  h_S6400x4 : 0 < S6400x4.numel
  shapeCasts_S6400x4_S6400x4 : S6400x4.ShapeCasts S6400x4
  inb_S6400x14_S6400x14_0_0 : ∀ a, (![0, 0] : Fin 2 → Nat) a + S6400x14.size a ≤ S6400x14.size a
  h_S6400x14 : 0 < S6400x14.numel
  iota_S6400x4_d1_w32 : S6400x4.Iotas .tc 32 [1]
  reduces_S6400x4_S6400 : S6400x4.Reduces [1] S6400
  shapeCasts_S6400_S6400x1 : S6400.ShapeCasts S6400x1
  concatenates_S6400x1_S6400x14_S6400x15_d1 : Shape.Concatenates [S6400x1, S6400x14] S6400x15 1
  inb_S15x14_S15x14_0_0 : ∀ a, (![0, 0] : Fin 2 → Nat) a + S15x14.size a ≤ S15x14.size a
  h_S15x14 : 0 < S15x14.numel
  inb_S14_S14_0 : ∀ a, (![0] : Fin 1 → Nat) a + S14.size a ≤ S14.size a
  h_S14 : 0 < S14.numel
  inb_S14x14_S14x14_0_0 : ∀ a, (![0, 0] : Fin 2 → Nat) a + S14x14.size a ≤ S14x14.size a
  h_S14x14 : 0 < S14x14.numel
  bitsLt_bf16_f32 : FTy.bits .bf16 < FTy.bits .f32
  shapeCasts_S14_S1x14 : S14.ShapeCasts S1x14
  broadcasts_S1x14_S6400x14 : S1x14.Broadcasts S6400x14
  bcast_S_S100000x14 : S_.BroadcastsInDim S100000x14 (![] : Fin 0 → Fin S100000x14.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x14_0_1 : S100000x1.BroadcastsInDim S100000x14 (![0, 1] : Fin 2 → Fin S100000x14.rank)
  inb_S5000x4_S5000x4_0_0 : ∀ a, (![0, 0] : Fin 2 → Nat) a + S5000x4.size a ≤ S5000x4.size a
  h_S5000x4 : 0 < S5000x4.numel
  inb_S5000x14_S5000x14_0_0 : ∀ a, (![0, 0] : Fin 2 → Nat) a + S5000x14.size a ≤ S5000x14.size a
  h_S5000x14 : 0 < S5000x14.numel
  shapeCasts_S5000x14_S5000x14 : S5000x14.ShapeCasts S5000x14
  iota_S5000x4_d1_w32 : S5000x4.Iotas .tc 32 [1]
  reduces_S5000x4_S5000 : S5000x4.Reduces [1] S5000
  shapeCasts_S5000_S5000x1 : S5000.ShapeCasts S5000x1
  concatenates_S5000x1_S5000x14_S5000x15_d1 : Shape.Concatenates [S5000x1, S5000x14] S5000x15 1
  broadcasts_S1x14_S5000x14 : S1x14.Broadcasts S5000x14
  gather_S100000x4_S6400000x1_S6400000x4_1_0_n_n_0_1_14_wf : GatherDims.WF S100000x4 S6400000x1 S6400000x4 [1] [0] [] [0] [] 1 ![1, 4]
  dot_S6400x15_S15x14_S6400x14_1_0_0_1_n_n_wf : DotDims.WF S6400x15 S15x14 S6400x14 [1] [0] [0] [1] [] []
  dot_S6400x14_S14x14_S6400x14_1_0_0_1_n_n_wf : DotDims.WF S6400x14 S14x14 S6400x14 [1] [0] [0] [1] [] []
  scatter_S100000x14_S6400000x1_S6400000x14_1_0_0_1_wf : ScatterDims.WF S100000x14 S6400000x1 S6400000x14 [1] [0] [0] 1
  scatter_S100000_S6400000x1_S6400000_n_0_0_1_wf : ScatterDims.WF S100000 S6400000x1 S6400000 [] [0] [0] 1
  dot_S5000x15_S15x14_S5000x14_1_0_0_1_n_n_wf : DotDims.WF S5000x15 S15x14 S5000x14 [1] [0] [0] [1] [] []
  dot_S5000x14_S14x14_S5000x14_1_0_0_1_n_n_wf : DotDims.WF S5000x14 S14x14 S5000x14 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x4.size a ≤ S6400000x4.size a
  hwx0_0 : ∀ i : grid0.Coords, EltTy.bits .f32 = 32 ∨ (Rect.block (s := S6400000x4) S6400x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x14.size a ≤ S6400000x14.size a
  hwx0_1 : ∀ i : grid0.Coords, EltTy.bits .f32 = 32 ∨ (Rect.block (s := S6400000x14) S6400x14.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S15x14.size a ≤ S15x14.size a
  hwx0_2 : ∀ i : grid0.Coords, EltTy.bits .f32 = 32 ∨ (Rect.block (s := S15x14) S15x14.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S14.size a ≤ S14.size a
  hwx0_3 : ∀ i : grid0.Coords, EltTy.bits .f32 = 32 ∨ (Rect.block (s := S14) S14.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S14x14.size a ≤ S14x14.size a
  hwx0_4 : ∀ i : grid0.Coords, EltTy.bits .f32 = 32 ∨ (Rect.block (s := S14x14) S14x14.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S14.size a ≤ S14.size a
  hwx0_5 : ∀ i : grid0.Coords, EltTy.bits .f32 = 32 ∨ (Rect.block (s := S14) S14.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S6400x14.size a ≤ S6400000x14.size a
  hwx0_6 : ∀ i : grid0.Coords, EltTy.bits .f32 = 32 ∨ (Rect.block (s := S6400000x14) S6400x14.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x4.size a ≤ S100000x4.size a
  hwx1_0 : ∀ i : grid1.Coords, EltTy.bits .f32 = 32 ∨ (Rect.block (s := S100000x4) S5000x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x14.size a ≤ S100000x14.size a
  hwx1_1 : ∀ i : grid1.Coords, EltTy.bits .f32 = 32 ∨ (Rect.block (s := S100000x14) S5000x14.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S15x14.size a ≤ S15x14.size a
  hwx1_2 : ∀ i : grid1.Coords, EltTy.bits .f32 = 32 ∨ (Rect.block (s := S15x14) S15x14.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S14.size a ≤ S14.size a
  hwx1_3 : ∀ i : grid1.Coords, EltTy.bits .f32 = 32 ∨ (Rect.block (s := S14) S14.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S14x14.size a ≤ S14x14.size a
  hwx1_4 : ∀ i : grid1.Coords, EltTy.bits .f32 = 32 ∨ (Rect.block (s := S14x14) S14x14.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S14.size a ≤ S14.size a
  hwx1_5 : ∀ i : grid1.Coords, EltTy.bits .f32 = 32 ∨ (Rect.block (s := S14) S14.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x14.size a ≤ S100000x14.size a
  hwx1_6 : ∀ i : grid1.Coords, EltTy.bits .f32 = 32 ∨ (Rect.block (s := S100000x14) S5000x14.size (cc1_transform_6 i) (hinb1_6 i)).WholeWords (EltTy.packing .f32)

variable [Facts₀]

def gather_S100000x4_S6400000x1_S6400000x4_1_0_n_n_0_1_14 : GatherDims S100000x4 S6400000x1 S6400000x4 where
  offsetDims := [1]
  collapsedSliceDims := [0]
  operandBatchingDims := []
  startIndicesBatchingDims := []
  startIndexMap := [0]
  indexVectorDim := 1
  sliceSizes := ![1, 4]
  wf := gather_S100000x4_S6400000x1_S6400000x4_1_0_n_n_0_1_14_wf
def dot_S6400x15_S15x14_S6400x14_1_0_0_1_n_n : DotDims S6400x15 S15x14 S6400x14 where
  lhsContracting := [1]
  rhsContracting := [0]
  lhsNonContracting := [0]
  rhsNonContracting := [1]
  lhsBatch := []
  rhsBatch := []
  wf := dot_S6400x15_S15x14_S6400x14_1_0_0_1_n_n_wf
def dot_S6400x14_S14x14_S6400x14_1_0_0_1_n_n : DotDims S6400x14 S14x14 S6400x14 where
  lhsContracting := [1]
  rhsContracting := [0]
  lhsNonContracting := [0]
  rhsNonContracting := [1]
  lhsBatch := []
  rhsBatch := []
  wf := dot_S6400x14_S14x14_S6400x14_1_0_0_1_n_n_wf
def scatter_S100000x14_S6400000x1_S6400000x14_1_0_0_1 : ScatterDims S100000x14 S6400000x1 S6400000x14 where
  updateWindowDims := [1]
  insertedWindowDims := [0]
  scatterDimsToOperandDims := [0]
  indexVectorDim := 1
  wf := scatter_S100000x14_S6400000x1_S6400000x14_1_0_0_1_wf
def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def dot_S5000x15_S15x14_S5000x14_1_0_0_1_n_n : DotDims S5000x15 S15x14 S5000x14 where
  lhsContracting := [1]
  rhsContracting := [0]
  lhsNonContracting := [0]
  rhsNonContracting := [1]
  lhsBatch := []
  rhsBatch := []
  wf := dot_S5000x15_S15x14_S5000x14_1_0_0_1_n_n_wf
def dot_S5000x14_S14x14_S5000x14_1_0_0_1_n_n : DotDims S5000x14 S14x14 S5000x14 where
  lhsContracting := [1]
  rhsContracting := [0]
  lhsNonContracting := [0]
  rhsNonContracting := [1]
  lhsBatch := []
  rhsBatch := []
  wf := dot_S5000x14_S14x14_S5000x14_1_0_0_1_n_n_wf

abbrev win0_0 : Pipeline.Window sig grid0 :=
  Pipeline.Window.ofSpec (Memref.whole main_v10) S6400x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S6400x14.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S15x14.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S14.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S14x14.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S14.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S6400x14.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S5000x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5000x14.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S15x14.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S14.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S14x14.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S14.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23) S5000x14.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x4 : Shape := ⟨2, ![100000, 4]⟩
abbrev S2x6400000 : Shape := ⟨2, ![2, 6400000]⟩
abbrev S6400000x14 : Shape := ⟨2, ![6400000, 14]⟩
abbrev S1x1 : Shape := ⟨2, ![1, 1]⟩
abbrev S100000 : Shape := ⟨1, ![100000]⟩
abbrev S15x14 : Shape := ⟨2, ![15, 14]⟩
abbrev S14 : Shape := ⟨1, ![14]⟩
abbrev S14x14 : Shape := ⟨2, ![14, 14]⟩
abbrev S4 : Shape := ⟨1, ![4]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S6400000x4 : Shape := ⟨2, ![6400000, 4]⟩
abbrev S1x4 : Shape := ⟨2, ![1, 4]⟩
abbrev S6400000x15 : Shape := ⟨2, ![6400000, 15]⟩
abbrev S1x14 : Shape := ⟨2, ![1, 14]⟩
abbrev S100000x14 : Shape := ⟨2, ![100000, 14]⟩
abbrev S100000x1 : Shape := ⟨2, ![100000, 1]⟩
abbrev S100000x15 : Shape := ⟨2, ![100000, 15]⟩

abbrev nBuf : Space → Nat
  | .hbm => 83
  | .vmem => 0
  | .smem => 0
  | _ => 0

abbrev bufTy : (tb : Table) → Fin (tcTables nBuf tb) → BufTy
  | .hbm, ⟨0, _⟩ => ⟨S100000x4, .f32⟩
  | .hbm, ⟨1, _⟩ => ⟨S2x6400000, .i32⟩
  | .hbm, ⟨2, _⟩ => ⟨S6400000x14, .f32⟩
  | .hbm, ⟨3, _⟩ => ⟨S1x1, .f32⟩
  | .hbm, ⟨4, _⟩ => ⟨S100000, .i32⟩
  | .hbm, ⟨5, _⟩ => ⟨S15x14, .f32⟩
  | .hbm, ⟨6, _⟩ => ⟨S14, .f32⟩
  | .hbm, ⟨7, _⟩ => ⟨S14x14, .f32⟩
  | .hbm, ⟨8, _⟩ => ⟨S14, .f32⟩
  | .hbm, ⟨9, _⟩ => ⟨S15x14, .f32⟩
  | .hbm, ⟨10, _⟩ => ⟨S14, .f32⟩
  | .hbm, ⟨11, _⟩ => ⟨S14x14, .f32⟩
  | .hbm, ⟨12, _⟩ => ⟨S14, .f32⟩
  | .hbm, ⟨13, _⟩ => ⟨S4, .f32⟩
  | .hbm, ⟨14, _⟩ => ⟨S4, .f32⟩
  | .hbm, ⟨15, _⟩ => ⟨S1x6400000, .i32⟩
  | .hbm, ⟨16, _⟩ => ⟨S6400000, .i32⟩
  | .hbm, ⟨17, _⟩ => ⟨S1x6400000, .i32⟩
  | .hbm, ⟨18, _⟩ => ⟨S6400000, .i32⟩
  | .hbm, ⟨19, _⟩ => ⟨S_, .i32⟩
  | .hbm, ⟨20, _⟩ => ⟨S6400000, .i32⟩
  | .hbm, ⟨21, _⟩ => ⟨S6400000, .i1⟩
  | .hbm, ⟨22, _⟩ => ⟨S_, .i32⟩
  | .hbm, ⟨23, _⟩ => ⟨S6400000, .i32⟩
  | .hbm, ⟨24, _⟩ => ⟨S6400000, .i32⟩
  | .hbm, ⟨25, _⟩ => ⟨S6400000, .i32⟩
  | .hbm, ⟨26, _⟩ => ⟨S6400000x1, .i32⟩
  | .hbm, ⟨27, _⟩ => ⟨S6400000x4, .f32⟩
  | .hbm, ⟨28, _⟩ => ⟨S1x4, .f32⟩
  | .hbm, ⟨29, _⟩ => ⟨S6400000x4, .f32⟩
  | .hbm, ⟨30, _⟩ => ⟨S6400000x4, .f32⟩
  | .hbm, ⟨31, _⟩ => ⟨S6400000x4, .f32⟩
  | .hbm, ⟨32, _⟩ => ⟨S_, .f32⟩
  | .hbm, ⟨33, _⟩ => ⟨S6400000, .f32⟩
  | .hbm, ⟨34, _⟩ => ⟨S6400000x1, .f32⟩
  | .hbm, ⟨35, _⟩ => ⟨S6400000x15, .f32⟩
  | .hbm, ⟨36, _⟩ => ⟨S6400000x14, .f32⟩
  | .hbm, ⟨37, _⟩ => ⟨S1x14, .f32⟩
  | .hbm, ⟨38, _⟩ => ⟨S6400000x14, .f32⟩
  | .hbm, ⟨39, _⟩ => ⟨S6400000x14, .f32⟩
  | .hbm, ⟨40, _⟩ => ⟨S_, .f32⟩
  | .hbm, ⟨41, _⟩ => ⟨S6400000x14, .f32⟩
  | .hbm, ⟨42, _⟩ => ⟨S6400000x14, .f32⟩
  | .hbm, ⟨43, _⟩ => ⟨S6400000x14, .f32⟩
  | .hbm, ⟨44, _⟩ => ⟨S1x14, .f32⟩
  | .hbm, ⟨45, _⟩ => ⟨S6400000x14, .f32⟩
  | .hbm, ⟨46, _⟩ => ⟨S6400000x14, .f32⟩
  | .hbm, ⟨47, _⟩ => ⟨S_, .f32⟩
  | .hbm, ⟨48, _⟩ => ⟨S100000x14, .f32⟩
  | .hbm, ⟨49, _⟩ => ⟨S6400000x1, .i32⟩
  | .hbm, ⟨50, _⟩ => ⟨S100000x14, .f32⟩
  | .hbm, ⟨51, _⟩ => ⟨S_, .f32⟩
  | .hbm, ⟨52, _⟩ => ⟨S6400000, .f32⟩
  | .hbm, ⟨53, _⟩ => ⟨S_, .f32⟩
  | .hbm, ⟨54, _⟩ => ⟨S100000, .f32⟩
  | .hbm, ⟨55, _⟩ => ⟨S6400000x1, .i32⟩
  | .hbm, ⟨56, _⟩ => ⟨S100000, .f32⟩
  | .hbm, ⟨57, _⟩ => ⟨S_, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S100000x1, .f32⟩
  | .hbm, ⟨62, _⟩ => ⟨S100000x14, .f32⟩
  | .hbm, ⟨63, _⟩ => ⟨S100000x14, .f32⟩
  | .hbm, ⟨64, _⟩ => ⟨S1x4, .f32⟩
  | .hbm, ⟨65, _⟩ => ⟨S100000x4, .f32⟩
  | .hbm, ⟨66, _⟩ => ⟨S100000x4, .f32⟩
  | .hbm, ⟨67, _⟩ => ⟨S100000x4, .f32⟩
  | .hbm, ⟨68, _⟩ => ⟨S_, .f32⟩
  | .hbm, ⟨69, _⟩ => ⟨S100000, .f32⟩
  | .hbm, ⟨70, _⟩ => ⟨S100000x1, .f32⟩
  | .hbm, ⟨71, _⟩ => ⟨S100000x15, .f32⟩
  | .hbm, ⟨72, _⟩ => ⟨S100000x14, .f32⟩
  | .hbm, ⟨73, _⟩ => ⟨S1x14, .f32⟩
  | .hbm, ⟨74, _⟩ => ⟨S100000x14, .f32⟩
  | .hbm, ⟨75, _⟩ => ⟨S100000x14, .f32⟩
  | .hbm, ⟨76, _⟩ => ⟨S_, .f32⟩
  | .hbm, ⟨77, _⟩ => ⟨S100000x14, .f32⟩
  | .hbm, ⟨78, _⟩ => ⟨S100000x14, .f32⟩
  | .hbm, ⟨79, _⟩ => ⟨S100000x14, .f32⟩
  | .hbm, ⟨80, _⟩ => ⟨S1x14, .f32⟩
  | .hbm, ⟨81, _⟩ => ⟨S100000x14, .f32⟩
  | .hbm, ⟨82, _⟩ => ⟨S100000x14, .f32⟩
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_cst_0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_call0_cst : Ref sig .tc := ⟨.hbm, 40, rfl⟩
abbrev main_call0_v0 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_cst_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_6 : Ref sig .tc := ⟨.hbm, 57, rfl⟩
abbrev main_call1_v0 : Ref sig .tc := ⟨.hbm, 58, rfl⟩
abbrev main_call1_v1 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_7 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_call2_cst : Ref sig .tc := ⟨.hbm, 76, rfl⟩
abbrev main_call2_v0 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S4_S1x4_1 : S4.BroadcastsInDim S1x4 (![1] : Fin 1 → Fin S1x4.rank)
  bcast_S1x4_S6400000x4_0_1 : S1x4.BroadcastsInDim S6400000x4 (![0, 1] : Fin 2 → Fin S6400000x4.rank)
  reducesTo_S6400000x4_S6400000_d1 : S6400000x4.ReducesTo [1] S6400000
  h_S_ : 0 < S_.numel
  concatenates_S6400000x1_S6400000x14_S6400000x15_d1 : Shape.Concatenates [S6400000x1, S6400000x14] S6400000x15 1
  bcast_S14_S1x14_1 : S14.BroadcastsInDim S1x14 (![1] : Fin 1 → Fin S1x14.rank)
  bcast_S1x14_S6400000x14_0_1 : S1x14.BroadcastsInDim S6400000x14 (![0, 1] : Fin 2 → Fin S6400000x14.rank)
  bcast_S_S6400000x14 : S_.BroadcastsInDim S6400000x14 (![] : Fin 0 → Fin S6400000x14.rank)
  bcast_S_S100000x14 : S_.BroadcastsInDim S100000x14 (![] : Fin 0 → Fin S100000x14.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x14_0_1 : S100000x1.BroadcastsInDim S100000x14 (![0, 1] : Fin 2 → Fin S100000x14.rank)
  bcast_S1x4_S100000x4_0_1 : S1x4.BroadcastsInDim S100000x4 (![0, 1] : Fin 2 → Fin S100000x4.rank)
  reducesTo_S100000x4_S100000_d1 : S100000x4.ReducesTo [1] S100000
  concatenates_S100000x1_S100000x14_S100000x15_d1 : Shape.Concatenates [S100000x1, S100000x14] S100000x15 1
  bcast_S1x14_S100000x14_0_1 : S1x14.BroadcastsInDim S100000x14 (![0, 1] : Fin 2 → Fin S100000x14.rank)
  gather_S100000x4_S6400000x1_S6400000x4_1_0_n_n_0_1_14_wf : GatherDims.WF S100000x4 S6400000x1 S6400000x4 [1] [0] [] [0] [] 1 ![1, 4]
  dot_S6400000x15_S15x14_S6400000x14_1_0_0_1_n_n_wf : DotDims.WF S6400000x15 S15x14 S6400000x14 [1] [0] [0] [1] [] []
  dot_S6400000x14_S14x14_S6400000x14_1_0_0_1_n_n_wf : DotDims.WF S6400000x14 S14x14 S6400000x14 [1] [0] [0] [1] [] []
  scatter_S100000x14_S6400000x1_S6400000x14_1_0_0_1_wf : ScatterDims.WF S100000x14 S6400000x1 S6400000x14 [1] [0] [0] 1
  scatter_S100000_S6400000x1_S6400000_n_0_0_1_wf : ScatterDims.WF S100000 S6400000x1 S6400000 [] [0] [0] 1
  dot_S100000x15_S15x14_S100000x14_1_0_0_1_n_n_wf : DotDims.WF S100000x15 S15x14 S100000x14 [1] [0] [0] [1] [] []
  dot_S100000x14_S14x14_S100000x14_1_0_0_1_n_n_wf : DotDims.WF S100000x14 S14x14 S100000x14 [1] [0] [0] [1] [] []

variable [Facts₀]

def gather_S100000x4_S6400000x1_S6400000x4_1_0_n_n_0_1_14 : GatherDims S100000x4 S6400000x1 S6400000x4 where
  offsetDims := [1]
  collapsedSliceDims := [0]
  operandBatchingDims := []
  startIndicesBatchingDims := []
  startIndexMap := [0]
  indexVectorDim := 1
  sliceSizes := ![1, 4]
  wf := gather_S100000x4_S6400000x1_S6400000x4_1_0_n_n_0_1_14_wf
def dot_S6400000x15_S15x14_S6400000x14_1_0_0_1_n_n : DotDims S6400000x15 S15x14 S6400000x14 where
  lhsContracting := [1]
  rhsContracting := [0]
  lhsNonContracting := [0]
  rhsNonContracting := [1]
  lhsBatch := []
  rhsBatch := []
  wf := dot_S6400000x15_S15x14_S6400000x14_1_0_0_1_n_n_wf
def dot_S6400000x14_S14x14_S6400000x14_1_0_0_1_n_n : DotDims S6400000x14 S14x14 S6400000x14 where
  lhsContracting := [1]
  rhsContracting := [0]
  lhsNonContracting := [0]
  rhsNonContracting := [1]
  lhsBatch := []
  rhsBatch := []
  wf := dot_S6400000x14_S14x14_S6400000x14_1_0_0_1_n_n_wf
def scatter_S100000x14_S6400000x1_S6400000x14_1_0_0_1 : ScatterDims S100000x14 S6400000x1 S6400000x14 where
  updateWindowDims := [1]
  insertedWindowDims := [0]
  scatterDimsToOperandDims := [0]
  indexVectorDim := 1
  wf := scatter_S100000x14_S6400000x1_S6400000x14_1_0_0_1_wf
def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def dot_S100000x15_S15x14_S100000x14_1_0_0_1_n_n : DotDims S100000x15 S15x14 S100000x14 where
  lhsContracting := [1]
  rhsContracting := [0]
  lhsNonContracting := [0]
  rhsNonContracting := [1]
  lhsBatch := []
  rhsBatch := []
  wf := dot_S100000x15_S15x14_S100000x14_1_0_0_1_n_n_wf
def dot_S100000x14_S14x14_S100000x14_1_0_0_1_n_n : DotDims S100000x14 S14x14 S100000x14 where
  lhsContracting := [1]
  rhsContracting := [0]
  lhsNonContracting := [0]
  rhsNonContracting := [1]
  lhsBatch := []
  rhsBatch := []
  wf := dot_S100000x14_S14x14_S100000x14_1_0_0_1_n_n_wf

class Facts : Prop extends Facts₀ where

variable [Facts]
-- ==== Proof.RefStages.lean ====
/-
  The reference program's value, stage by stage: each definition below is the literal composition of the printed
  operations of one part of @main (same functions, same side conditions by their field names, same order of
  operands), generic in the float values.

  gatherRows : the rows of the node array at the first row of the edge table (a negative index wrapped by the
               node count), one row per edge                                  -- %0, %1, %c, %4 .. %10
  edgeMlp    : per edge, the Minkowski square of its row, prepended to the edge attributes, through two affine
               layers with a rectifier between                                -- %cst, %11 .. %26
  segMean    : the per-node sum of the edge outputs at the second row of the edge table, divided by the per-node
               edge count clipped below at one                                -- %2, %3, %cst_3, %27 .. %37
  nodeMlp    : per node, the Minkowski square of its row, prepended to the mean, through two affine layers with
               a rectifier between                                            -- %cst_0, %38 .. %53
  refOut     : the four composed: the program's result %53 from its arguments.
-/
import proofs.«139659_j69861938037251_1_alg».proof.ReferenceIdeal

noncomputable section

namespace Cert.ReferenceIdeal.Stages

open Idealize.ShloMosaic Idealize.SL.Sem
open Cert.ReferenceIdeal
open Cert.ReferenceIdeal.Facts₀ Cert.ReferenceIdeal.Facts

variable {F : FTy → Type} [FloatOps F] [Facts]

/-- %10 from %arg0 and %arg1: the first row of the edge table as a vector, each negative entry raised by the node
    count, as a column of start indices; the rows of the node array gathered at them. -/
def gatherRows (x : (⟨S100000x4, .f32⟩ : BufTy).Contents (Elt F)) (e : (⟨S2x6400000, .i32⟩ : BufTy).Contents (Elt F)) :
    (⟨S6400000x4, .f32⟩ : BufTy).Contents (Elt F) :=
  Host.gather gather_S100000x4_S6400000x1_S6400000x4_1_0_n_n_0_1_14 x
    (broadcastInDim S6400000x1 ![0] bcast_S6400000_S6400000x1_0
      (select
        (cmpi .slt
          (shapeCast S6400000 (extractStridedSlice S1x6400000 ![0, 0] e slices_S2x6400000_S1x6400000_0_0) shapeCasts_S1x6400000_S6400000)
          (broadcastInDim S6400000 ![] bcast_S_S6400000 (constantI S_ 32 0#32)))
        (addi
          (shapeCast S6400000 (extractStridedSlice S1x6400000 ![0, 0] e slices_S2x6400000_S1x6400000_0_0) shapeCasts_S1x6400000_S6400000)
          (broadcastInDim S6400000 ![] bcast_S_S6400000 (constantI S_ 32 100000#32)))
        (shapeCast S6400000 (extractStridedSlice S1x6400000 ![0, 0] e slices_S2x6400000_S1x6400000_0_0) shapeCasts_S1x6400000_S6400000)))

/-- %26 from %10, %arg2, %arg5 .. %arg8: the row times the signature (-1, 1, 1, 1) times the row, summed along the
    row; that column before the edge attributes; times the first weights plus the first bias; the maximum with
    zero; times the second weights plus the second bias. -/
def edgeMlp (xr : (⟨S6400000x4, .f32⟩ : BufTy).Contents (Elt F)) (ea : (⟨S6400000x14, .f32⟩ : BufTy).Contents (Elt F))
    (wa : (⟨S15x14, .f32⟩ : BufTy).Contents (Elt F)) (ba : (⟨S14, .f32⟩ : BufTy).Contents (Elt F))
    (wb : (⟨S14x14, .f32⟩ : BufTy).Contents (Elt F)) (bb : (⟨S14, .f32⟩ : BufTy).Contents (Elt F)) :
    (⟨S6400000x14, .f32⟩ : BufTy).Contents (Elt F) :=
  addf
    (Host.dotGeneral dot_S6400000x14_S14x14_S6400000x14_1_0_0_1_n_n none
      (maximumf
        (addf
          (Host.dotGeneral dot_S6400000x15_S15x14_S6400000x14_1_0_0_1_n_n none
            (concatenate S6400000x15 1
              [⟨S6400000x1, broadcastInDim S6400000x1 ![0] bcast_S6400000_S6400000x1_0
                  (Host.reduceAdd
                    (mulf
                      (mulf xr
                        (broadcastInDim S6400000x4 ![0, 1] bcast_S1x4_S6400000x4_0_1
                          (broadcastInDim S1x4 ![1] bcast_S4_S1x4_1
                            (fun i => FloatOps.ofBits .f32 (lit0 (S4.rowMajor i)) : (⟨S4, .f32⟩ : BufTy).Contents (Elt F)))))
                      xr)
                    (constant S_ .f32 0x00000000#32) reducesTo_S6400000x4_S6400000_d1 h_S_)⟩,
               ⟨S6400000x14, ea⟩]
              concatenates_S6400000x1_S6400000x14_S6400000x15_d1)
            wa)
          (broadcastInDim S6400000x14 ![0, 1] bcast_S1x14_S6400000x14_0_1 (broadcastInDim S1x14 ![1] bcast_S14_S1x14_1 ba)))
        (broadcastInDim S6400000x14 ![] bcast_S_S6400000x14 (constant S_ .f32 0x00000000#32)))
      wb)
    (broadcastInDim S6400000x14 ![0, 1] bcast_S1x14_S6400000x14_0_1 (broadcastInDim S1x14 ![1] bcast_S14_S1x14_1 bb))

/-- %37 from %26 and %arg1: the second row of the edge table as a column of indices; the edge outputs added into a
    zero array at them; ones added into a zero vector at them, the maximum of one and that count, as a column
    repeated along the row; the quotient. -/
def segMean (eo : (⟨S6400000x14, .f32⟩ : BufTy).Contents (Elt F)) (e : (⟨S2x6400000, .i32⟩ : BufTy).Contents (Elt F)) :
    (⟨S100000x14, .f32⟩ : BufTy).Contents (Elt F) :=
  Host.divf
    (Host.scatterAdd scatter_S100000x14_S6400000x1_S6400000x14_1_0_0_1
      (broadcastInDim S100000x14 ![] bcast_S_S100000x14 (constant S_ .f32 0x00000000#32))
      (broadcastInDim S6400000x1 ![0] bcast_S6400000_S6400000x1_0
        (shapeCast S6400000 (extractStridedSlice S1x6400000 ![1, 0] e slices_S2x6400000_S1x6400000_1_0) shapeCasts_S1x6400000_S6400000))
      eo)
    (broadcastInDim S100000x14 ![0, 1] bcast_S100000x1_S100000x14_0_1
      (broadcastInDim S100000x1 ![0] bcast_S100000_S100000x1_0
        (maximumf
          (broadcastInDim S100000 ![] bcast_S_S100000 (id (constant S_ .f32 0x3F800000#32)))
          (Host.scatterAdd scatter_S100000_S6400000x1_S6400000_n_0_0_1
            (broadcastInDim S100000 ![] bcast_S_S100000 (constant S_ .f32 0x00000000#32))
            (broadcastInDim S6400000x1 ![0] bcast_S6400000_S6400000x1_0
              (shapeCast S6400000 (extractStridedSlice S1x6400000 ![1, 0] e slices_S2x6400000_S1x6400000_1_0) shapeCasts_S1x6400000_S6400000))
            (broadcastInDim S6400000 ![] bcast_S_S6400000 (constant S_ .f32 0x3F800000#32))))))

/-- %53 from %arg0, %37, %arg9 .. %arg12: the text of edgeMlp over the nodes, the mean in the place of the edge
    attributes. -/
def nodeMlp (xr : (⟨S100000x4, .f32⟩ : BufTy).Contents (Elt F)) (ea : (⟨S100000x14, .f32⟩ : BufTy).Contents (Elt F))
    (wa : (⟨S15x14, .f32⟩ : BufTy).Contents (Elt F)) (ba : (⟨S14, .f32⟩ : BufTy).Contents (Elt F))
    (wb : (⟨S14x14, .f32⟩ : BufTy).Contents (Elt F)) (bb : (⟨S14, .f32⟩ : BufTy).Contents (Elt F)) :
    (⟨S100000x14, .f32⟩ : BufTy).Contents (Elt F) :=
  addf
    (Host.dotGeneral dot_S100000x14_S14x14_S100000x14_1_0_0_1_n_n none
      (maximumf
        (addf
          (Host.dotGeneral dot_S100000x15_S15x14_S100000x14_1_0_0_1_n_n none
            (concatenate S100000x15 1
              [⟨S100000x1, broadcastInDim S100000x1 ![0] bcast_S100000_S100000x1_0
                  (Host.reduceAdd
                    (mulf
                      (mulf xr
                        (broadcastInDim S100000x4 ![0, 1] bcast_S1x4_S100000x4_0_1
                          (broadcastInDim S1x4 ![1] bcast_S4_S1x4_1
                            (fun i => FloatOps.ofBits .f32 (lit1 (S4.rowMajor i)) : (⟨S4, .f32⟩ : BufTy).Contents (Elt F)))))
                      xr)
                    (constant S_ .f32 0x00000000#32) reducesTo_S100000x4_S100000_d1 h_S_)⟩,
               ⟨S100000x14, ea⟩]
              concatenates_S100000x1_S100000x14_S100000x15_d1)
            wa)
          (broadcastInDim S100000x14 ![0, 1] bcast_S1x14_S100000x14_0_1 (broadcastInDim S1x14 ![1] bcast_S14_S1x14_1 ba)))
        (broadcastInDim S100000x14 ![] bcast_S_S100000x14 (constant S_ .f32 0x00000000#32)))
      wb)
    (broadcastInDim S100000x14 ![0, 1] bcast_S1x14_S100000x14_0_1 (broadcastInDim S1x14 ![1] bcast_S14_S1x14_1 bb))

/-- The program's result from its arguments. -/
def refOut (x : (⟨S100000x4, .f32⟩ : BufTy).Contents (Elt F)) (e : (⟨S2x6400000, .i32⟩ : BufTy).Contents (Elt F))
    (ea : (⟨S6400000x14, .f32⟩ : BufTy).Contents (Elt F))
    (w1a : (⟨S15x14, .f32⟩ : BufTy).Contents (Elt F)) (b1a : (⟨S14, .f32⟩ : BufTy).Contents (Elt F))
    (w1b : (⟨S14x14, .f32⟩ : BufTy).Contents (Elt F)) (b1b : (⟨S14, .f32⟩ : BufTy).Contents (Elt F))
    (w2a : (⟨S15x14, .f32⟩ : BufTy).Contents (Elt F)) (b2a : (⟨S14, .f32⟩ : BufTy).Contents (Elt F))
    (w2b : (⟨S14x14, .f32⟩ : BufTy).Contents (Elt F)) (b2b : (⟨S14, .f32⟩ : BufTy).Contents (Elt F)) :
    (⟨S100000x14, .f32⟩ : BufTy).Contents (Elt F) :=
  nodeMlp x (segMean (edgeMlp (gatherRows x e) ea w1a b1a w1b b1b) e) w2a b2a w2b b2b

end Cert.ReferenceIdeal.Stages

end
-- ==== Proof.RefRun.lean ====
/-
  The reference program's run, read back: @main as the list of its seventy host operations in order (the three
  calls unfolded at their sites, each callee's three operations over that call's own buffers), and what every
  weakly fair execution ends with: the result buffer at the stages' composition of the arguments' launch
  contents, the thirteen arguments unchanged.
-/
import proofs.«139659_j69861938037251_1_alg».proof.Proof.RefStages
import proofs.«139659_j69861938037251_1_alg».proof.Proof.Gen.ReferenceIdeal
import Idealize.ShloMosaic.Lib.StableHlo.Run

noncomputable section

namespace Cert.ReferenceIdeal.HandRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The concatenation of two arrays along an axis as a function of the two arrays: the printed operation's
    function, its two operands ordinary arguments (the side condition speaks of the shapes alone). -/
def cat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- @main's seventy operations, in order: the first twenty-seven of its first window, the rectifier's three over
    the first call's buffers, fifteen more, the clip's three over the second call's, fifteen more, the second
    rectifier's three over the third call's, and the second window's four. -/
abbrev ops : List (HloOp τ sig (Elt F)) :=
  [ StableHlo.nullary main_cst (fun i => FloatOps.ofBits .f32 (lit0 (S4.rowMajor i))),
    StableHlo.nullary main_cst_0 (fun i => FloatOps.ofBits .f32 (lit1 (S4.rowMajor i))),
    StableHlo.unary main_arg1 main_v0 ((extractStridedSlice S1x6400000 ![0, 0] · slices_S2x6400000_S1x6400000_0_0) : (⟨S2x6400000, .i32⟩ : BufTy).Contents (Elt F) → (⟨S1x6400000, .i32⟩ : BufTy).Contents (Elt F)),
    StableHlo.reshape main_v0 main_v1 rfl shapeCasts_S1x6400000_S6400000,
    StableHlo.unary main_arg1 main_v2 ((extractStridedSlice S1x6400000 ![1, 0] · slices_S2x6400000_S1x6400000_1_0) : (⟨S2x6400000, .i32⟩ : BufTy).Contents (Elt F) → (⟨S1x6400000, .i32⟩ : BufTy).Contents (Elt F)),
    StableHlo.reshape main_v2 main_v3 rfl shapeCasts_S1x6400000_S6400000,
    StableHlo.nullary main_c (constantI S_ 32 0#32),
    StableHlo.unary main_c main_v4 (broadcastInDim S6400000 ![] bcast_S_S6400000 : (⟨S_, .i32⟩ : BufTy).Contents (Elt F) → (⟨S6400000, .i32⟩ : BufTy).Contents (Elt F)),
    StableHlo.binary main_v1 main_v4 main_v5 (cmpi .slt : (⟨S6400000, .i32⟩ : BufTy).Contents (Elt F) → (⟨S6400000, .i32⟩ : BufTy).Contents (Elt F) → (⟨S6400000, .i1⟩ : BufTy).Contents (Elt F)),
    StableHlo.nullary main_c_1 (constantI S_ 32 100000#32),
    StableHlo.unary main_c_1 main_v6 (broadcastInDim S6400000 ![] bcast_S_S6400000 : (⟨S_, .i32⟩ : BufTy).Contents (Elt F) → (⟨S6400000, .i32⟩ : BufTy).Contents (Elt F)),
    StableHlo.binary main_v1 main_v6 main_v7 (addi : (⟨S6400000, .i32⟩ : BufTy).Contents (Elt F) → (⟨S6400000, .i32⟩ : BufTy).Contents (Elt F) → (⟨S6400000, .i32⟩ : BufTy).Contents (Elt F)),
    StableHlo.ternary main_v5 main_v7 main_v1 main_v8 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    StableHlo.unary main_v8 main_v9 (broadcastInDim S6400000x1 ![0] bcast_S6400000_S6400000x1_0 : (⟨S6400000, .i32⟩ : BufTy).Contents (Elt F) → (⟨S6400000x1, .i32⟩ : BufTy).Contents (Elt F)),
    StableHlo.binary main_arg0 main_v9 main_v10 ((fun x i => Host.gather gather_S100000x4_S6400000x1_S6400000x4_1_0_n_n_0_1_14 x i) : (⟨S100000x4, .f32⟩ : BufTy).Contents (Elt F) → (⟨S6400000x1, .i32⟩ : BufTy).Contents (Elt F) → (⟨S6400000x4, .f32⟩ : BufTy).Contents (Elt F)),
    StableHlo.unary main_cst main_v11 (broadcastInDim S1x4 ![1] bcast_S4_S1x4_1 : (⟨S4, .f32⟩ : BufTy).Contents (Elt F) → (⟨S1x4, .f32⟩ : BufTy).Contents (Elt F)),
    StableHlo.unary main_v11 main_v12 (broadcastInDim S6400000x4 ![0, 1] bcast_S1x4_S6400000x4_0_1 : (⟨S1x4, .f32⟩ : BufTy).Contents (Elt F) → (⟨S6400000x4, .f32⟩ : BufTy).Contents (Elt F)),
    StableHlo.binary main_v10 main_v12 main_v13 (mulf : (⟨S6400000x4, .f32⟩ : BufTy).Contents (Elt F) → (⟨S6400000x4, .f32⟩ : BufTy).Contents (Elt F) → (⟨S6400000x4, .f32⟩ : BufTy).Contents (Elt F)),
    StableHlo.binary main_v13 main_v10 main_v14 (mulf : (⟨S6400000x4, .f32⟩ : BufTy).Contents (Elt F) → (⟨S6400000x4, .f32⟩ : BufTy).Contents (Elt F) → (⟨S6400000x4, .f32⟩ : BufTy).Contents (Elt F)),
    StableHlo.nullary main_cst_2 (constant S_ .f32 0x00000000#32),
    StableHlo.binary main_v14 main_cst_2 main_v15 ((fun x v => Host.reduceAdd x v reducesTo_S6400000x4_S6400000_d1 h_S_) : (⟨S6400000x4, .f32⟩ : BufTy).Contents (Elt F) → (⟨S_, .f32⟩ : BufTy).Contents (Elt F) → (⟨S6400000, .f32⟩ : BufTy).Contents (Elt F)),
    StableHlo.unary main_v15 main_v16 (broadcastInDim S6400000x1 ![0] bcast_S6400000_S6400000x1_0 : (⟨S6400000, .f32⟩ : BufTy).Contents (Elt F) → (⟨S6400000x1, .f32⟩ : BufTy).Contents (Elt F)),
    StableHlo.binary main_v16 main_arg2 main_v17 (cat2 S6400000x15 1 S6400000x1 S6400000x14 concatenates_S6400000x1_S6400000x14_S6400000x15_d1 : (⟨S6400000x1, .f32⟩ : BufTy).Contents (Elt F) → (⟨S6400000x14, .f32⟩ : BufTy).Contents (Elt F) → (⟨S6400000x15, .f32⟩ : BufTy).Contents (Elt F)),
    StableHlo.binary main_v17 main_arg5 main_v18 ((fun l r => Host.dotGeneral dot_S6400000x15_S15x14_S6400000x14_1_0_0_1_n_n none l r) : (⟨S6400000x15, .f32⟩ : BufTy).Contents (Elt F) → (⟨S15x14, .f32⟩ : BufTy).Contents (Elt F) → (⟨S6400000x14, .f32⟩ : BufTy).Contents (Elt F)),
    StableHlo.unary main_arg6 main_v19 (broadcastInDim S1x14 ![1] bcast_S14_S1x14_1 : (⟨S14, .f32⟩ : BufTy).Contents (Elt F) → (⟨S1x14, .f32⟩ : BufTy).Contents (Elt F)),
    StableHlo.unary main_v19 main_v20 (broadcastInDim S6400000x14 ![0, 1] bcast_S1x14_S6400000x14_0_1 : (⟨S1x14, .f32⟩ : BufTy).Contents (Elt F) → (⟨S6400000x14, .f32⟩ : BufTy).Contents (Elt F)),
    StableHlo.binary main_v18 main_v20 main_v21 (addf : (⟨S6400000x14, .f32⟩ : BufTy).Contents (Elt F) → (⟨S6400000x14, .f32⟩ : BufTy).Contents (Elt F) → (⟨S6400000x14, .f32⟩ : BufTy).Contents (Elt F)),
    StableHlo.TRef.nullary main_call0.cst (constant S_ .f32 0x00000000#32),
    StableHlo.TRef.unary main_call0.cst main_call0.v0 (broadcastInDim S6400000x14 ![] bcast_S_S6400000x14),
    StableHlo.TRef.binary (.of main_v21) main_call0.v0 main_call0.v1 maximumf,
    StableHlo.binary main_v22 main_arg7 main_v23 ((fun l r => Host.dotGeneral dot_S6400000x14_S14x14_S6400000x14_1_0_0_1_n_n none l r) : (⟨S6400000x14, .f32⟩ : BufTy).Contents (Elt F) → (⟨S14x14, .f32⟩ : BufTy).Contents (Elt F) → (⟨S6400000x14, .f32⟩ : BufTy).Contents (Elt F)),
    StableHlo.unary main_arg8 main_v24 (broadcastInDim S1x14 ![1] bcast_S14_S1x14_1 : (⟨S14, .f32⟩ : BufTy).Contents (Elt F) → (⟨S1x14, .f32⟩ : BufTy).Contents (Elt F)),
    StableHlo.unary main_v24 main_v25 (broadcastInDim S6400000x14 ![0, 1] bcast_S1x14_S6400000x14_0_1 : (⟨S1x14, .f32⟩ : BufTy).Contents (Elt F) → (⟨S6400000x14, .f32⟩ : BufTy).Contents (Elt F)),
    StableHlo.binary main_v23 main_v25 main_v26 (addf : (⟨S6400000x14, .f32⟩ : BufTy).Contents (Elt F) → (⟨S6400000x14, .f32⟩ : BufTy).Contents (Elt F) → (⟨S6400000x14, .f32⟩ : BufTy).Contents (Elt F)),
    StableHlo.nullary main_cst_3 (constant S_ .f32 0x00000000#32),
    StableHlo.unary main_cst_3 main_v27 (broadcastInDim S100000x14 ![] bcast_S_S100000x14 : (⟨S_, .f32⟩ : BufTy).Contents (Elt F) → (⟨S100000x14, .f32⟩ : BufTy).Contents (Elt F)),
    StableHlo.unary main_v3 main_v28 (broadcastInDim S6400000x1 ![0] bcast_S6400000_S6400000x1_0 : (⟨S6400000, .i32⟩ : BufTy).Contents (Elt F) → (⟨S6400000x1, .i32⟩ : BufTy).Contents (Elt F)),
    StableHlo.ternary main_v27 main_v28 main_v26 main_v29 ((fun x i u => Host.scatterAdd scatter_S100000x14_S6400000x1_S6400000x14_1_0_0_1 x i u) : (⟨S100000x14, .f32⟩ : BufTy).Contents (Elt F) → (⟨S6400000x1, .i32⟩ : BufTy).Contents (Elt F) → (⟨S6400000x14, .f32⟩ : BufTy).Contents (Elt F) → (⟨S100000x14, .f32⟩ : BufTy).Contents (Elt F)),
    StableHlo.nullary main_cst_4 (constant S_ .f32 0x3F800000#32),
    StableHlo.unary main_cst_4 main_v30 (broadcastInDim S6400000 ![] bcast_S_S6400000 : (⟨S_, .f32⟩ : BufTy).Contents (Elt F) → (⟨S6400000, .f32⟩ : BufTy).Contents (Elt F)),
    StableHlo.nullary main_cst_5 (constant S_ .f32 0x00000000#32),
    StableHlo.unary main_cst_5 main_v31 (broadcastInDim S100000 ![] bcast_S_S100000 : (⟨S_, .f32⟩ : BufTy).Contents (Elt F) → (⟨S100000, .f32⟩ : BufTy).Contents (Elt F)),
    StableHlo.unary main_v3 main_v32 (broadcastInDim S6400000x1 ![0] bcast_S6400000_S6400000x1_0 : (⟨S6400000, .i32⟩ : BufTy).Contents (Elt F) → (⟨S6400000x1, .i32⟩ : BufTy).Contents (Elt F)),
    StableHlo.ternary main_v31 main_v32 main_v30 main_v33 ((fun x i u => Host.scatterAdd scatter_S100000_S6400000x1_S6400000_n_0_0_1 x i u) : (⟨S100000, .f32⟩ : BufTy).Contents (Elt F) → (⟨S6400000x1, .i32⟩ : BufTy).Contents (Elt F) → (⟨S6400000, .f32⟩ : BufTy).Contents (Elt F) → (⟨S100000, .f32⟩ : BufTy).Contents (Elt F)),
    StableHlo.nullary main_cst_6 (constant S_ .f32 0x3F800000#32),
    StableHlo.TRef.unary (.of main_cst_6) main_call1.v0 id,
    StableHlo.TRef.unary main_call1.v0 main_call1.v1 (broadcastInDim S100000 ![] bcast_S_S100000),
    StableHlo.TRef.binary main_call1.v1 (.of main_v33) main_call1.v2 maximumf,
    StableHlo.unary main_v34 main_v35 (broadcastInDim S100000x1 ![0] bcast_S100000_S100000x1_0 : (⟨S100000, .f32⟩ : BufTy).Contents (Elt F) → (⟨S100000x1, .f32⟩ : BufTy).Contents (Elt F)),
    StableHlo.unary main_v35 main_v36 (broadcastInDim S100000x14 ![0, 1] bcast_S100000x1_S100000x14_0_1 : (⟨S100000x1, .f32⟩ : BufTy).Contents (Elt F) → (⟨S100000x14, .f32⟩ : BufTy).Contents (Elt F)),
    StableHlo.binary main_v29 main_v36 main_v37 (Host.divf : (⟨S100000x14, .f32⟩ : BufTy).Contents (Elt F) → (⟨S100000x14, .f32⟩ : BufTy).Contents (Elt F) → (⟨S100000x14, .f32⟩ : BufTy).Contents (Elt F)),
    StableHlo.unary main_cst_0 main_v38 (broadcastInDim S1x4 ![1] bcast_S4_S1x4_1 : (⟨S4, .f32⟩ : BufTy).Contents (Elt F) → (⟨S1x4, .f32⟩ : BufTy).Contents (Elt F)),
    StableHlo.unary main_v38 main_v39 (broadcastInDim S100000x4 ![0, 1] bcast_S1x4_S100000x4_0_1 : (⟨S1x4, .f32⟩ : BufTy).Contents (Elt F) → (⟨S100000x4, .f32⟩ : BufTy).Contents (Elt F)),
    StableHlo.binary main_arg0 main_v39 main_v40 (mulf : (⟨S100000x4, .f32⟩ : BufTy).Contents (Elt F) → (⟨S100000x4, .f32⟩ : BufTy).Contents (Elt F) → (⟨S100000x4, .f32⟩ : BufTy).Contents (Elt F)),
    StableHlo.binary main_v40 main_arg0 main_v41 (mulf : (⟨S100000x4, .f32⟩ : BufTy).Contents (Elt F) → (⟨S100000x4, .f32⟩ : BufTy).Contents (Elt F) → (⟨S100000x4, .f32⟩ : BufTy).Contents (Elt F)),
    StableHlo.nullary main_cst_7 (constant S_ .f32 0x00000000#32),
    StableHlo.binary main_v41 main_cst_7 main_v42 ((fun x v => Host.reduceAdd x v reducesTo_S100000x4_S100000_d1 h_S_) : (⟨S100000x4, .f32⟩ : BufTy).Contents (Elt F) → (⟨S_, .f32⟩ : BufTy).Contents (Elt F) → (⟨S100000, .f32⟩ : BufTy).Contents (Elt F)),
    StableHlo.unary main_v42 main_v43 (broadcastInDim S100000x1 ![0] bcast_S100000_S100000x1_0 : (⟨S100000, .f32⟩ : BufTy).Contents (Elt F) → (⟨S100000x1, .f32⟩ : BufTy).Contents (Elt F)),
    StableHlo.binary main_v43 main_v37 main_v44 (cat2 S100000x15 1 S100000x1 S100000x14 concatenates_S100000x1_S100000x14_S100000x15_d1 : (⟨S100000x1, .f32⟩ : BufTy).Contents (Elt F) → (⟨S100000x14, .f32⟩ : BufTy).Contents (Elt F) → (⟨S100000x15, .f32⟩ : BufTy).Contents (Elt F)),
    StableHlo.binary main_v44 main_arg9 main_v45 ((fun l r => Host.dotGeneral dot_S100000x15_S15x14_S100000x14_1_0_0_1_n_n none l r) : (⟨S100000x15, .f32⟩ : BufTy).Contents (Elt F) → (⟨S15x14, .f32⟩ : BufTy).Contents (Elt F) → (⟨S100000x14, .f32⟩ : BufTy).Contents (Elt F)),
    StableHlo.unary main_arg10 main_v46 (broadcastInDim S1x14 ![1] bcast_S14_S1x14_1 : (⟨S14, .f32⟩ : BufTy).Contents (Elt F) → (⟨S1x14, .f32⟩ : BufTy).Contents (Elt F)),
    StableHlo.unary main_v46 main_v47 (broadcastInDim S100000x14 ![0, 1] bcast_S1x14_S100000x14_0_1 : (⟨S1x14, .f32⟩ : BufTy).Contents (Elt F) → (⟨S100000x14, .f32⟩ : BufTy).Contents (Elt F)),
    StableHlo.binary main_v45 main_v47 main_v48 (addf : (⟨S100000x14, .f32⟩ : BufTy).Contents (Elt F) → (⟨S100000x14, .f32⟩ : BufTy).Contents (Elt F) → (⟨S100000x14, .f32⟩ : BufTy).Contents (Elt F)),
    StableHlo.TRef.nullary main_call2.cst (constant S_ .f32 0x00000000#32),
    StableHlo.TRef.unary main_call2.cst main_call2.v0 (broadcastInDim S100000x14 ![] bcast_S_S100000x14),
    StableHlo.TRef.binary (.of main_v48) main_call2.v0 main_call2.v1 maximumf,
    StableHlo.binary main_v49 main_arg11 main_v50 ((fun l r => Host.dotGeneral dot_S100000x14_S14x14_S100000x14_1_0_0_1_n_n none l r) : (⟨S100000x14, .f32⟩ : BufTy).Contents (Elt F) → (⟨S14x14, .f32⟩ : BufTy).Contents (Elt F) → (⟨S100000x14, .f32⟩ : BufTy).Contents (Elt F)),
    StableHlo.unary main_arg12 main_v51 (broadcastInDim S1x14 ![1] bcast_S14_S1x14_1 : (⟨S14, .f32⟩ : BufTy).Contents (Elt F) → (⟨S1x14, .f32⟩ : BufTy).Contents (Elt F)),
    StableHlo.unary main_v51 main_v52 (broadcastInDim S100000x14 ![0, 1] bcast_S1x14_S100000x14_0_1 : (⟨S1x14, .f32⟩ : BufTy).Contents (Elt F) → (⟨S100000x14, .f32⟩ : BufTy).Contents (Elt F)),
    StableHlo.binary main_v50 main_v52 main_v53 (addf : (⟨S100000x14, .f32⟩ : BufTy).Contents (Elt F) → (⟨S100000x14, .f32⟩ : BufTy).Contents (Elt F) → (⟨S100000x14, .f32⟩ : BufTy).Contents (Elt F)) ]

-- seventy binds re-associated: the rewrite under the chain recurses once per statement
set_option maxRecDepth 4096 in
set_option maxHeartbeats 8000000 in
/-- @main is that straight line: the two windows, the callees' definitions unfolded at their calls and the records at
    their fields; both sides are one chain of steps once sequencing is reassociated (the two concatenations' functions
    agree by unfolding). -/
theorem main_eq (c : Dev nD) : main (F := F) c = seq ops := by
  simp only [main, main_part0, main_part1, fn_relu.body, fn_clip.body, fn_relu_0.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., reshape_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    binary_bufs_sub .., nullary_bufs_sub .., binary_bufs_sub .., unary_bufs_sub .., binary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub .., nullary_bufs_sub .., unary_bufs_sub ..,
    unary_bufs_sub .., ternary_bufs_sub .., nullary_bufs_sub .., unary_bufs_sub .., nullary_bufs_sub .., unary_bufs_sub ..,
    unary_bufs_sub .., ternary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., nullary_bufs_sub .., binary_bufs_sub .., unary_bufs_sub .., binary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub ..⟩

attribute [local irreducible] Host.gather Host.scatterAdd Host.reduceAdd in
set_option maxRecDepth 8192 in
set_option maxHeartbeats 4000000 in
/-- The fold at the result buffer is the stages' composition of the arguments: each operation's result at its own
    buffer is its function's value and at any other buffer what was there, in one pass over the seventy; what is left
    is the stages unfolded, the typed references' transports the identity at these literal references and the
    reshapes' transport along a reflexive equation, all by computation. The gather, the two scatters and the two
    reductions stay folded meanwhile: the equation never looks inside them. -/
theorem out_eq (V : Valuation τ sig (Elt F)) :
    after ops V (main_v53 : DevRef τ sig)
      = Stages.refOut (V (main_arg0 : DevRef τ sig)) (V (main_arg1 : DevRef τ sig)) (V (main_arg2 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  after_results_simp
  rfl

/-! No operation writes an argument: the fold leaves each of the thirteen as it was. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

theorem arg9_eq (V : Valuation τ sig (Elt F)) :
    after ops V (main_arg9 : DevRef τ sig) = V (main_arg9 : DevRef τ sig) := by
  after_results_simp

theorem arg10_eq (V : Valuation τ sig (Elt F)) :
    after ops V (main_arg10 : DevRef τ sig) = V (main_arg10 : DevRef τ sig) := by
  after_results_simp

theorem arg11_eq (V : Valuation τ sig (Elt F)) :
    after ops V (main_arg11 : DevRef τ sig) = V (main_arg11 : DevRef τ sig) := by
  after_results_simp

theorem arg12_eq (V : Valuation τ sig (Elt F)) :
    after ops V (main_arg12 : DevRef τ sig) = V (main_arg12 : DevRef τ sig) := by
  after_results_simp

/-- On every device, for any float values, from any memory with zero counters: every weakly fair execution of
    @main terminates with the result buffer at the stages' composition of the arguments' launch contents and the
    thirteen arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v53) = Stages.refOut (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v53).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _)⟩)
    (run_seq scopedRefs_eq scopedSems_eq defs main (fun _ => ops) main_eq (fun _ => ops_sub) m ρ)

end Cert.ReferenceIdeal.HandRun

end
-- ==== Proof.KRun.lean ====
/-
  The kernel program's run with its result named.  The program is a stretch of host operations (the gather of the
  node rows at the edges' sources), the edge kernel over its grid, three stretches of host operations (the sum of
  the edge outputs per destination node divided by the clipped count), and the node kernel over its grid.  Every
  weakly fair execution ends with the result buffer at what the last region's write-backs leave in it and the
  thirteen arguments as launched.  The contents at each boundary (W0 at launch up to W6 at the return) are those
  the generated frame module names; the result buffer is read off the last boundary's contents beside the arguments.
-/
import proofs.«139659_j69861938037251_1_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates with the result buffer at the contents the last
    region leaves and the arguments as launched. -/
theorem run_result : θ_run defs (onTc (τ := τ) (main (F := F))) ⟨m, fun _ => 0, ρ⟩ (fun r => ∀ c : Dev nD,
      r.2.mem ((c.tc : Thread nD τ).loc main_v23) = W6 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v23 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩)

end Cert.KernelIdeal.Hand

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.LibRowOps.lean ====
/-
  Three keepdims-style layout steps of a row-wise computation, read as functions of the index, at the ideal
  values: a length-b array laid out as one row and repeated down a rows; an a × 1 column repeated across b
  columns; and the sum of every row of an a × b array.
-/
import Idealize.ShloMosaic.PureOps.Ideal.Laws
import Idealize.ShloMosaic.Lib.Pipeline.Value
import Idealize.ShloMosaic.Lib.ValueLayout

noncomputable section

open scoped BigOperators

namespace Cert.LibRowOps

open Idealize.ShloMosaic Idealize.ShloMosaic.ValueIdx

variable {α : Type}

/-- A length-b array reshaped to one row and broadcast down a rows holds, at (p, c), its entry c. -/
theorem row_bcast {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) :
    broadcastTo ⟨2, ![a, b]⟩ (shapeCast ⟨2, ![1, b]⟩ v h1) h2 = fun i => v (ix1 (i 1)) := by
  funext i
  exact (congrArg (broadcastTo ⟨2, ![a, b]⟩ (shapeCast ⟨2, ![1, b]⟩ v h1) h2) (eq_ix2 i)).trans
    ((broadcastTo_1b_ab_apply _ h2 (i 0) (i 1)).trans (shapeCast_a_1a_apply v h1 0 (i 1)))

/-- An a × 1 column broadcast across b columns holds, at (p, c), the column's entry p. -/
theorem col_bcast_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same, as a function of the index. -/
theorem col_bcast {a b : ℕ} (v : (⟨2, ![a, 1]⟩ : Shape).Idx → α) (h : (⟨2, ![a, 1]⟩ : Shape).Broadcasts ⟨2, ![a, b]⟩) :
    broadcastTo ⟨2, ![a, b]⟩ v h = fun i => v (ix2 (i 0) (0 : Fin 1)) := by
  funext i
  exact (congrArg (broadcastTo ⟨2, ![a, b]⟩ v h) (eq_ix2 i)).trans (col_bcast_apply v h (i 0) (i 1))

/-- The index that a row sum reads: row r, column k. -/
theorem lift_row {a b : ℕ} (h : (⟨2, ![a, b]⟩ : Shape).Reduces [1] ⟨1, ![a]⟩) (j : (⟨1, ![a]⟩ : Shape).Idx) (k : Fin b) :
    h.lift j k = ix2 (j 0) k := by
  funext c
  apply Fin.ext
  show h.liftVal j k.val c = (ix2 (j 0) k c).val
  match c with
  | ⟨0, _⟩ => simp [Shape.Reduces.liftVal]
  | ⟨1, _⟩ => simp [Shape.Reduces.liftVal]

/-- The sum over axis 1 of an a × b array from the zero accumulator is, at r, the sum of row r (the two side
    conditions typed as a printed program's proofs of them are). -/
theorem rowsum {a b : ℕ} (v : FVec Ideal ⟨2, ![a, b]⟩ .f32) (h : (⟨2, ![a, b]⟩ : Shape).Reduces [1] ⟨1, ![a]⟩)
    (hφ : FTy.f32 = FTy.f32 ∨ FTy.f32 = FTy.bf16) (hacc : (0x00000000#32 : BitVec 32) = 0x00000000#32) :
    multiReduction .add [1] ⟨1, ![a]⟩ v 0x00000000#32 h hφ hacc = fun j => ∑ k : Fin b, v (ix2 (j 0) k) := by
  funext j
  refine (Ideal.multiReduction_add_single v 0x00000000#32 h hφ hacc j).trans ?_
  exact Finset.sum_congr rfl fun k _ => congrArg v (lift_row h j k)

/-- The same, for an accumulator proof stated against the sum's neutral word. -/
theorem rowsum_neutral {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) :
    multiReduction .add [1] ⟨1, ![a]⟩ v 0x00000000#32 h hφ hacc = fun j => ∑ k : Fin b, v (ix2 (j 0) k) := by
  funext j
  refine (Ideal.multiReduction_add_single v 0x00000000#32 h hφ hacc j).trans ?_
  exact Finset.sum_congr rfl fun k _ => congrArg v (lift_row h j k)

end Cert.LibRowOps

end
-- ==== Proof.LibHostLayout.lean ====
/-
  The host's layout steps as one function of the index, for any extents and element type: a vector broadcast to
  every row of a matrix in two steps ([b] to [1, b] along axis 1, then [1, b] to [a, b]); a one-column matrix
  broadcast across the columns; a vector kept as a one-column matrix; a scalar splat; and, at the ideal values, the
  host's sum over the last axis of a matrix as the initial value plus the sum of the row's entries.
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Cert.LibHostLayout

open Idealize.ShloMosaic Idealize.ShloMosaic.ValueIdx

variable {α : Type}

/-- A vector recast as a one-row matrix by a broadcast along axis 1. -/
theorem vecRow_eq {b : Nat} (x : (⟨1, ![b]⟩ : Shape).Idx → α)
    (h : (⟨1, ![b]⟩ : Shape).BroadcastsInDim ⟨2, ![1, b]⟩ (![1] : Fin 1 → Fin 2)) :
    broadcastInDim ⟨2, ![1, b]⟩ (![1] : Fin 1 → Fin 2) h x = fun i => x (ix1 (i 1)) := by
  funext i
  refine broadcastInDim_apply _ h x i (ix1 (i 1)) fun a => ?_
  match a with
  | ⟨0, _⟩ =>
    show (i 1).val = if b = 1 then 0 else (i 1).val
    split
    · next hb => have := (i 1).isLt; have : (i 1).val < b := this; omega
    · rfl

/-- A one-row matrix broadcast to every row. -/
theorem rowAll_eq {a b : Nat} (x : (⟨2, ![1, b]⟩ : Shape).Idx → α)
    (h : (⟨2, ![1, b]⟩ : Shape).BroadcastsInDim ⟨2, ![a, b]⟩ (![0, 1] : Fin 2 → Fin 2)) :
    broadcastInDim ⟨2, ![a, b]⟩ (![0, 1] : Fin 2 → Fin 2) h x = fun i => x (ix2 (0 : Fin 1) (i 1)) := by
  funext i
  refine broadcastInDim_apply _ h x i (ix2 (0 : Fin 1) (i 1)) fun c => ?_
  match c with
  | ⟨0, _⟩ => show (0 : Nat) = if (1 : Nat) = 1 then 0 else (i 0).val; rfl
  | ⟨1, _⟩ =>
    show (i 1).val = if b = 1 then 0 else (i 1).val
    split
    · next hb => have : (i 1).val < b := (i 1).isLt; omega
    · rfl

/-- A one-column matrix broadcast across the columns. -/
theorem colAll_eq {a b : Nat} (x : (⟨2, ![a, 1]⟩ : Shape).Idx → α)
    (h : (⟨2, ![a, 1]⟩ : Shape).BroadcastsInDim ⟨2, ![a, b]⟩ (![0, 1] : Fin 2 → Fin 2)) :
    broadcastInDim ⟨2, ![a, b]⟩ (![0, 1] : Fin 2 → Fin 2) h x = fun i => x (ix2 (i 0) (0 : Fin 1)) := by
  funext i
  refine broadcastInDim_apply _ h x i (ix2 (i 0) (0 : Fin 1)) fun c => ?_
  match c with
  | ⟨0, _⟩ =>
    show (i 0).val = if a = 1 then 0 else (i 0).val
    split
    · next ha => have : (i 0).val < a := (i 0).isLt; omega
    · rfl
  | ⟨1, _⟩ => show (0 : Nat) = if (1 : Nat) = 1 then 0 else (i 1).val; rfl

/-- A vector kept as a one-column matrix by a broadcast along axis 0. -/
theorem vecCol_eq {a : Nat} (x : (⟨1, ![a]⟩ : Shape).Idx → α)
    (h : (⟨1, ![a]⟩ : Shape).BroadcastsInDim ⟨2, ![a, 1]⟩ (![0] : Fin 1 → Fin 2)) :
    broadcastInDim ⟨2, ![a, 1]⟩ (![0] : Fin 1 → Fin 2) h x = fun i => x (ix1 (i 0)) := by
  funext i
  refine broadcastInDim_apply _ h x i (ix1 (i 0)) fun c => ?_
  match c with
  | ⟨0, _⟩ =>
    show (i 0).val = if a = 1 then 0 else (i 0).val
    split
    · next ha => have : (i 0).val < a := (i 0).isLt; omega
    · rfl

/-- A scalar splat to any shape. -/
theorem splat_eq {t : Shape} (x : (⟨0, ![]⟩ : Shape).Idx → α)
    (h : (⟨0, ![]⟩ : Shape).BroadcastsInDim t (![] : Fin 0 → Fin t.rank)) :
    broadcastInDim t (![] : Fin 0 → Fin t.rank) h x = fun _ => x ix0 := by
  funext i
  exact broadcastInDim_apply _ h x i ix0 fun a => a.elim0

end Cert.LibHostLayout

end
-- ==== Proof.LibColumns.lean ====
/-
  Column-wise layout steps read at an index written by coordinates, for any extents and any element type:
  a block of consecutive columns cut out of a matrix (extract_strided_slice with offsets [0, c]; also one column as
  a function of the index), consecutive entries cut out of a vector, two matrices with the same rows set side by
  side (a concatenation along axis 1: a column of the left and of the right part), and six single columns set side
  by side (column k of the result is the k-th of them).  Imports only the library's index and layout modules.
-/
import Idealize.ShloMosaic.Lib.Pipeline.Value
import Idealize.ShloMosaic.Lib.ValueIdx

noncomputable section

namespace Cert.LibColumns

open Idealize.ShloMosaic Idealize.ShloMosaic.ValueIdx

variable {α : Type}

/-- Columns c, c+1, … of a matrix cut out as a narrower matrix: entry (p, q) is entry (p, c + q). -/
theorem colsSlice_apply {a b b' : Nat} (c : Nat) (x : (⟨2, ![a, b]⟩ : Shape).Idx → α)
    (h : (⟨2, ![a, b]⟩ : Shape).Slices ![0, c] ⟨2, ![a, b']⟩) (p : Fin a) (q : Fin b') (j : Fin b) (hj : j.val = c + q.val) :
    extractStridedSlice ⟨2, ![a, b']⟩ ![0, c] x h (ix2 p q) = x (ix2 p j) :=
  extractStridedSlice_apply ![0, c] x h (ix2 p q) (ix2 p j) (fun d => match d with
    | ⟨0, _⟩ => by show p.val = 0 + p.val; omega
    | ⟨1, _⟩ => by show j.val = c + q.val; exact hj)

/-- Column c of a matrix cut out as a one-column matrix, as a function of the index: row i₀ of it holds entry (i₀, c). -/
theorem colSlice_fun {a b : Nat} (c : Nat) (hc : c < b) (x : (⟨2, ![a, b]⟩ : Shape).Idx → α)
    (h : (⟨2, ![a, b]⟩ : Shape).Slices ![0, c] ⟨2, ![a, 1]⟩) :
    extractStridedSlice ⟨2, ![a, 1]⟩ ![0, c] x h = fun i => x (ix2 (i 0) (⟨c, hc⟩ : Fin b)) := by
  funext i
  have h1 : (i 1 : Fin 1) = (0 : Fin 1) := Fin.ext (by have := idx2_lt1 i; show (i 1).val = 0; omega)
  have hi : i = ix2 (i 0) (0 : Fin 1) := (eq_ix2 i).trans (congrArg (ix2 (i 0)) h1)
  exact (congrArg (extractStridedSlice ⟨2, ![a, 1]⟩ ![0, c] x h) hi).trans
    (colsSlice_apply c x h (i 0) (0 : Fin 1) (⟨c, hc⟩ : Fin b) rfl)

/-- Entries c, c+1, … of a vector cut out as a shorter vector: entry q is entry c + q. -/
theorem vecSlice_apply {b b' : Nat} (c : Nat) (x : (⟨1, ![b]⟩ : Shape).Idx → α)
    (h : (⟨1, ![b]⟩ : Shape).Slices ![c] ⟨1, ![b']⟩) (q : Fin b') (j : Fin b) (hj : j.val = c + q.val) :
    extractStridedSlice ⟨1, ![b']⟩ ![c] x h (ix1 q) = x (ix1 j) :=
  extractStridedSlice_apply ![c] x h (ix1 q) (ix1 j) (fun d => match d with
    | ⟨0, _⟩ => by show j.val = c + q.val; exact hj)

/-- Two matrices with the same rows set side by side: a column of the left one. -/
theorem hcat_left {a b1 b2 b : Nat} (x1 : (⟨2, ![a, b1]⟩ : Shape).Idx → α) (x2 : (⟨2, ![a, b2]⟩ : Shape).Idx → α)
    (h : Shape.Concatenates [(⟨2, ![a, b1]⟩ : Shape), ⟨2, ![a, b2]⟩] ⟨2, ![a, b]⟩ 1) (p : Fin a) (q : Fin b) (q1 : Fin b1)
    (hq : q1.val = q.val) :
    concatenate ⟨2, ![a, b]⟩ 1 [⟨⟨2, ![a, b1]⟩, x1⟩, ⟨⟨2, ![a, b2]⟩, x2⟩] h (ix2 p q) = x1 (ix2 p q1) :=
  concatenate_pair_apply_left 1 x1 x2 h (ix2 p q) rfl (ix2 p q1) (fun d => match d with
    | ⟨0, _⟩ => rfl
    | ⟨1, _⟩ => hq)

/-- Two matrices with the same rows set side by side: a column of the right one. -/
theorem hcat_right {a b1 b2 b : Nat} (x1 : (⟨2, ![a, b1]⟩ : Shape).Idx → α) (x2 : (⟨2, ![a, b2]⟩ : Shape).Idx → α)
    (h : Shape.Concatenates [(⟨2, ![a, b1]⟩ : Shape), ⟨2, ![a, b2]⟩] ⟨2, ![a, b]⟩ 1) (p : Fin a) (q : Fin b) (q2 : Fin b2)
    (hq : q2.val + b1 = q.val) :
    concatenate ⟨2, ![a, b]⟩ 1 [⟨⟨2, ![a, b1]⟩, x1⟩, ⟨⟨2, ![a, b2]⟩, x2⟩] h (ix2 p q) = x2 (ix2 p q2) :=
  concatenate_pair_apply_right 1 x1 x2 h (ix2 p q) rfl rfl (ix2 p q2) (fun d => match d with
    | ⟨0, _⟩ => fun _ => rfl
    | ⟨1, _⟩ => fun hd => absurd rfl hd) hq

/-- Six single columns set side by side: column k of the result is the k-th of them. -/
theorem hcat6_apply {a : Nat} (x0 x1 x2 x3 x4 x5 : (⟨2, ![a, 1]⟩ : Shape).Idx → α)
    (h : Shape.Concatenates [(⟨2, ![a, 1]⟩ : Shape), ⟨2, ![a, 1]⟩, ⟨2, ![a, 1]⟩, ⟨2, ![a, 1]⟩, ⟨2, ![a, 1]⟩, ⟨2, ![a, 1]⟩] ⟨2, ![a, 6]⟩ 1)
    (p : Fin a) (k : Fin 6) :
    concatenate ⟨2, ![a, 6]⟩ 1 [⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩,
      ⟨⟨2, ![a, 1]⟩, x5⟩] h (ix2 p k)
      = ![x0 (ix2 p (0 : Fin 1)), x1 (ix2 p (0 : Fin 1)), x2 (ix2 p (0 : Fin 1)), x3 (ix2 p (0 : Fin 1)),
          x4 (ix2 p (0 : Fin 1)), x5 (ix2 p (0 : Fin 1))] k := by
  have hi : ∀ (k : Fin 6) (d : Fin (⟨2, ![a, 1]⟩ : Shape).rank), d.cast (rfl : (⟨2, ![a, 1]⟩ : Shape).rank = (⟨2, ![a, 6]⟩ : Shape).rank) ≠ 1 →
      ((ix2 p (0 : Fin 1) : (⟨2, ![a, 1]⟩ : Shape).Idx) d).val = ((ix2 p k : (⟨2, ![a, 6]⟩ : Shape).Idx) (d.cast rfl)).val :=
    fun k d => match d with
      | ⟨0, _⟩ => fun _ => rfl
      | ⟨1, _⟩ => fun hd => absurd rfl hd
  match k with
  | ⟨0, _⟩ => exact concatenate_apply_piece 1 [⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩, ⟨⟨2, ![a, 1]⟩, x5⟩] h _ 0 (by show (0 : Nat) < 6; omega) _ x0 rfl rfl 0 rfl (ix2 p (0 : Fin 1)) (hi _) rfl
  | ⟨1, _⟩ => exact concatenate_apply_piece 1 [⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩, ⟨⟨2, ![a, 1]⟩, x5⟩] h _ 1 (by show (1 : Nat) < 6; omega) _ x1 rfl rfl 1 rfl (ix2 p (0 : Fin 1)) (hi _) rfl
  | ⟨2, _⟩ => exact concatenate_apply_piece 1 [⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩, ⟨⟨2, ![a, 1]⟩, x5⟩] h _ 2 (by show (2 : Nat) < 6; omega) _ x2 rfl rfl 2 rfl (ix2 p (0 : Fin 1)) (hi _) rfl
  | ⟨3, _⟩ => exact concatenate_apply_piece 1 [⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩, ⟨⟨2, ![a, 1]⟩, x5⟩] h _ 3 (by show (3 : Nat) < 6; omega) _ x3 rfl rfl 3 rfl (ix2 p (0 : Fin 1)) (hi _) rfl
  | ⟨4, _⟩ => exact concatenate_apply_piece 1 [⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩, ⟨⟨2, ![a, 1]⟩, x5⟩] h _ 4 (by show (4 : Nat) < 6; omega) _ x4 rfl rfl 4 rfl (ix2 p (0 : Fin 1)) (hi _) rfl
  | ⟨5, _⟩ => exact concatenate_apply_piece 1 [⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩, ⟨⟨2, ![a, 1]⟩, x5⟩] h _ 5 (by show (5 : Nat) < 6; omega) _ x5 rfl rfl 5 rfl (ix2 p (0 : Fin 1)) (hi _) rfl

end Cert.LibColumns

end
-- ==== Proof.LibColumnCasts.lean ====
/-
  Three shape casts around a unit axis, each read at an index written by coordinates, for any extents and any
  element type. A shape cast keeps the row-major position; a unit axis contributes nothing to it.

    cast_dropSecond   [a, 1, b, c] → [a, b, c]   reads (p, q, r)  at (p, 0, q, r)
    cast_column       [a]          → [a, 1]      reads (p, u)     at p            (a sum kept as a column)
    cast_uncolumn     [a, 1]       → [a]         reads p          at (p, 0)       (a column read as a vector)
-/
import Idealize.ShloMosaic.Lib.Pipeline.Value
import Idealize.ShloMosaic.Lib.ValueIdx

namespace Cert.LibColumnCasts

open Idealize.ShloMosaic Idealize.ShloMosaic.ValueIdx

variable {α : Type}

/-- A cast that drops a unit axis in second place, `[a,1,b,c]` to `[a,b,c]`, reads `(p,q,r)` at `(p,0,q,r)`. -/
theorem cast_dropSecond {a b c : ℕ} (x : (⟨4, ![a, 1, b, c]⟩ : Shape).Idx → α)
    (h : (⟨4, ![a, 1, b, c]⟩ : Shape).ShapeCasts ⟨3, ![a, b, c]⟩) (p : Fin a) (q : Fin b) (r : Fin c) :
    shapeCast ⟨3, ![a, b, c]⟩ x h (ix3 p q r) = x (ix4 p (0 : Fin 1) q r) :=
  shapeCast_apply x h _ _ (by
    rw [Shape.rowMajor_val_four, Shape.rowMajor_val_three]
    show ((p.val * 1 + 0) * b + q.val) * c + r.val = (p.val * b + q.val) * c + r.val
    rw [Nat.mul_one, Nat.add_zero])

/-- A vector written as one column, `[a]` to `[a,1]`, reads `(p,u)` at `p`, whatever the unit coordinate `u`. -/
theorem cast_column {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A one-column array read as a vector, `[a,1]` to `[a]`, reads `p` at `(p,0)`. -/
theorem cast_uncolumn {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    omega)

end Cert.LibColumnCasts
-- ==== Proof.MlpSpec.lean ====
/-
  The small network both programs apply to every row, as one function of the index on the extended reals.

  A row carries a four-vector v and fourteen further features e.  Its first feature is the Minkowski square
  of v for the metric diag(-1, 1, 1, 1), the sum over l of v_l * s_l * v_l with s_0 = -1 and s_l = 1 otherwise;
  the fifteen features (that square, then e) go through two affine layers with a maximum against zero between
  them:  out = max(feat * wa + ba, 0) * wb + bb,  each product a plain sum over the contracted axis.
  Nothing here needs finiteness: both programs compute the same sums of the same products in the same order
  of operands, so the extended reals' own + and * suffice.

  Two readings are proved equal to that function, for any number of rows T: the vector unit's (an iota and a
  select for the signs, a lane sum kept as a column, a concatenation, two matmuls into zero accumulators with
  operands passed through a change of float format, biases reshaped to a row and broadcast) and the host's (a
  constant table for the signs broadcast in two steps, a reduce from zero, broadcast_in_dim for the column and
  the biases, dot_general).
-/
import Idealize.ShloMosaic.PureOps.Ideal.Laws
import Idealize.ShloMosaic.Lib.ValueIdx
import Idealize.ShloMosaic.Lib.Pipeline.Value
import Idealize.ShloMosaic.Lib.IdealHost
import proofs.«139659_j69861938037251_1_alg».proof.Proof.LibMatmul
import proofs.«139659_j69861938037251_1_alg».proof.Proof.LibRowOps
import proofs.«139659_j69861938037251_1_alg».proof.Proof.LibHostLayout
import proofs.«139659_j69861938037251_1_alg».proof.Proof.LibColumns
import proofs.«139659_j69861938037251_1_alg».proof.Proof.LibColumnCasts

noncomputable section

open scoped BigOperators

namespace Cert.Lorentz

open Idealize.ShloMosaic Idealize.ShloMosaic.ValueIdx Cert.LibMatmul

/-- The metric's sign at coordinate l: -1 on the time coordinate, +1 on the three space coordinates. -/
def sgn (l : Fin 4) : EReal :=
  if l.val = 0 then Ideal.ofBits .f32 0xBF800000#32 else Ideal.ofBits .f32 0x3F800000#32

/-- The Minkowski square of row p of a T-by-4 array. -/
def mnorm {T : Nat} (v : (⟨2, ![T, 4]⟩ : Shape).Idx → EReal) (p : Fin T) : EReal :=
  ∑ l : Fin 4, v (ix2 p l) * sgn l * v (ix2 p l)

/-- The fifteen features of a row: its Minkowski square, then its fourteen further entries. -/
def feat {T : Nat} (v : (⟨2, ![T, 4]⟩ : Shape).Idx → EReal) (e : (⟨2, ![T, 14]⟩ : Shape).Idx → EReal) :
    (⟨2, ![T, 15]⟩ : Shape).Idx → EReal :=
  fun i => if h : (i 1).val = 0 then mnorm v (i 0)
    else e (ix2 (i 0) (⟨(i 1).val - 1, by have := idx2_lt1 i; omega⟩ : Fin 14))

/-- An affine layer: the matrix product plus the bias of the column. -/
def layer {T K B : Nat} (h : (⟨2, ![T, K]⟩ : Shape).Idx → EReal) (w : (⟨2, ![K, B]⟩ : Shape).Idx → EReal)
    (b : (⟨1, ![B]⟩ : Shape).Idx → EReal) : (⟨2, ![T, B]⟩ : Shape).Idx → EReal :=
  fun i => MM h w i + b (ix1 (i 1))

/-- The maximum against zero, entry by entry (zero kept as the float word both programs print). -/
def relu {s : Shape} (x : s.Idx → EReal) : s.Idx → EReal :=
  fun i => max (x i) (Ideal.ofBits .f32 0x00000000#32)

/-- The network on every row. -/
def mlp {T : Nat} (v : (⟨2, ![T, 4]⟩ : Shape).Idx → EReal) (e : (⟨2, ![T, 14]⟩ : Shape).Idx → EReal)
    (wa : (⟨2, ![15, 14]⟩ : Shape).Idx → EReal) (ba : (⟨1, ![14]⟩ : Shape).Idx → EReal)
    (wb : (⟨2, ![14, 14]⟩ : Shape).Idx → EReal) (bb : (⟨1, ![14]⟩ : Shape).Idx → EReal) :
    (⟨2, ![T, 14]⟩ : Shape).Idx → EReal :=
  layer (relu (layer (feat v e) wa ba)) wb bb

/-- A column holding the rows' Minkowski squares set beside e is the feature array. -/
theorem concat_feat {T : Nat} (v : (⟨2, ![T, 4]⟩ : Shape).Idx → EReal) (e : (⟨2, ![T, 14]⟩ : Shape).Idx → EReal)
    (col : (⟨2, ![T, 1]⟩ : Shape).Idx → EReal) (hcol : ∀ (p : Fin T) (u : Fin 1), col (ix2 p u) = mnorm v p)
    (h : Shape.Concatenates [(⟨2, ![T, 1]⟩ : Shape), ⟨2, ![T, 14]⟩] ⟨2, ![T, 15]⟩ 1) :
    concatenate ⟨2, ![T, 15]⟩ 1 [⟨⟨2, ![T, 1]⟩, col⟩, ⟨⟨2, ![T, 14]⟩, e⟩] h = feat v e := by
  funext i
  have hi : i = ix2 (i 0) (i 1) := eq_ix2 i
  by_cases h0 : (i 1).val = 0
  · have hf : feat v e i = mnorm v (i 0) := by unfold feat; rw [dif_pos h0]
    rw [hf]
    exact (congrArg (concatenate ⟨2, ![T, 15]⟩ 1 [⟨⟨2, ![T, 1]⟩, col⟩, ⟨⟨2, ![T, 14]⟩, e⟩] h) hi).trans
      ((Cert.LibColumns.hcat_left col e h (i 0) (i 1) (0 : Fin 1) (by rw [h0]; rfl)).trans (hcol (i 0) 0))
  · have hlt : (i 1).val < 15 := idx2_lt1 i
    have hf : feat v e i = e (ix2 (i 0) (⟨(i 1).val - 1, by omega⟩ : Fin 14)) := by unfold feat; rw [dif_neg h0]
    rw [hf]
    exact (congrArg (concatenate ⟨2, ![T, 15]⟩ 1 [⟨⟨2, ![T, 1]⟩, col⟩, ⟨⟨2, ![T, 14]⟩, e⟩] h) hi).trans
      (Cert.LibColumns.hcat_right col e h (i 0) (i 1) (⟨(i 1).val - 1, by omega⟩ : Fin 14) (by show (i 1).val - 1 + 1 = (i 1).val; omega))

end Cert.Lorentz

end
-- ==== Proof.VecMlp.lean ====
/-
  The vector unit's reading of the row network is the function `mlp`: the signs come from a select on "the lane
  index is zero", the Minkowski square is a lane sum from the zero accumulator kept as a column by a shape cast and
  set in front of the fourteen features; each layer is a matmul into a zero accumulator whose operands pass
  through a change of float format (the identity on the extended reals) plus the bias reshaped to one row and
  broadcast down the rows; between the layers a maximum against a zero splat.  For any number of rows.
-/
import proofs.«139659_j69861938037251_1_alg».proof.Proof.MlpSpec

noncomputable section

open scoped BigOperators

namespace Cert.Lorentz

open Idealize.ShloMosaic Idealize.ShloMosaic.ValueIdx Cert.LibMatmul

/-- A select on "coordinate l is zero", l below four, is the sign of the metric at l. -/
theorem select_sgn (l : Fin 4) :
    Scalar.select (IntOp.cmpi .eq (BitVec.ofNat 32 l.val) 0#32) (Ideal.ofBits .f32 0xBF800000#32) (Ideal.ofBits .f32 0x3F800000#32)
      = sgn l := by
  unfold sgn
  fin_cases l <;> rfl

theorem vec_mlp {T : Nat}
    (d1 : DotDims ⟨2, ![T, 15]⟩ ⟨2, ![15, 14]⟩ ⟨2, ![T, 14]⟩)
    (h1lb : d1.lhsBatch = []) (h1ln : d1.lhsNonContracting = [0]) (h1lc : d1.lhsContracting = [1])
    (h1rb : d1.rhsBatch = []) (h1rn : d1.rhsNonContracting = [1]) (h1rc : d1.rhsContracting = [0])
    (d2 : DotDims ⟨2, ![T, 14]⟩ ⟨2, ![14, 14]⟩ ⟨2, ![T, 14]⟩)
    (h2lb : d2.lhsBatch = []) (h2ln : d2.lhsNonContracting = [0]) (h2lc : d2.lhsContracting = [1])
    (h2rb : d2.rhsBatch = []) (h2rn : d2.rhsNonContracting = [1]) (h2rc : d2.rhsContracting = [0])
    (hio : (⟨2, ![T, 4]⟩ : Shape).Iotas .tc 32 [1])
    (hred : (⟨2, ![T, 4]⟩ : Shape).Reduces [1] ⟨1, ![T]⟩)
    (hφ : FTy.f32 = FTy.f32 ∨ FTy.f32 = FTy.bf16) (hacc : (0x00000000#32 : BitVec 32) = 0x00000000#32)
    (hcol : (⟨1, ![T]⟩ : Shape).ShapeCasts ⟨2, ![T, 1]⟩)
    (hcat : Shape.Concatenates [(⟨2, ![T, 1]⟩ : Shape), ⟨2, ![T, 14]⟩] ⟨2, ![T, 15]⟩ 1)
    (hlt : FTy.bf16.bits < FTy.f32.bits)
    (hrow : (⟨1, ![14]⟩ : Shape).ShapeCasts ⟨2, ![1, 14]⟩)
    (hbr : (⟨2, ![1, 14]⟩ : Shape).Broadcasts ⟨2, ![T, 14]⟩)
    (v : FVec Ideal ⟨2, ![T, 4]⟩ .f32) (e : FVec Ideal ⟨2, ![T, 14]⟩ .f32)
    (wa : FVec Ideal ⟨2, ![15, 14]⟩ .f32) (ba : FVec Ideal ⟨1, ![14]⟩ .f32)
    (wb : FVec Ideal ⟨2, ![14, 14]⟩ .f32) (bb : FVec Ideal ⟨1, ![14]⟩ .f32) :
    addf (matmul d2 none
        (truncf .bf16 (maximumf (addf (matmul d1 none
              (truncf .bf16 (concatenate ⟨2, ![T, 15]⟩ 1 [⟨⟨2, ![T, 1]⟩, shapeCast ⟨2, ![T, 1]⟩
                  (multiReduction .add [1] ⟨1, ![T]⟩ (mulf (mulf v (select (cmpi .eq (iota .tc ⟨2, ![T, 4]⟩ 32 [1] hio) (broadcast ⟨2, ![T, 4]⟩ (0#32 : BitVec 32)))
                      (broadcast ⟨2, ![T, 4]⟩ (Scalar.ofBits .f32 0xBF800000#32 : Ideal .f32)) (broadcast ⟨2, ![T, 4]⟩ (Scalar.ofBits .f32 0x3F800000#32 : Ideal .f32)))) v)
                    0x00000000#32 hred hφ hacc) hcol⟩, ⟨⟨2, ![T, 14]⟩, e⟩] hcat) hlt)
              (truncf .bf16 wa hlt) (constant ⟨2, ![T, 14]⟩ .f32 0x00000000#32))
            (broadcastTo ⟨2, ![T, 14]⟩ (shapeCast ⟨2, ![1, 14]⟩ ba hrow) hbr))
          (broadcast ⟨2, ![T, 14]⟩ (Scalar.ofBits .f32 0x00000000#32 : Ideal .f32))) hlt)
        (truncf .bf16 wb hlt) (constant ⟨2, ![T, 14]⟩ .f32 0x00000000#32))
      (broadcastTo ⟨2, ![T, 14]⟩ (shapeCast ⟨2, ![1, 14]⟩ bb hrow) hbr)
    = mlp v e wa ba wb bb := by
  -- the signs
  have hsel : select (cmpi .eq (iota .tc ⟨2, ![T, 4]⟩ 32 [1] hio) (broadcast ⟨2, ![T, 4]⟩ (0#32 : BitVec 32)))
      (broadcast ⟨2, ![T, 4]⟩ (Scalar.ofBits .f32 0xBF800000#32 : Ideal .f32)) (broadcast ⟨2, ![T, 4]⟩ (Scalar.ofBits .f32 0x3F800000#32 : Ideal .f32))
      = fun i => sgn (i 1) := by
    funext i
    show Scalar.select (IntOp.cmpi .eq (iota .tc ⟨2, ![T, 4]⟩ 32 [1] hio i) 0#32) (Ideal.ofBits .f32 0xBF800000#32) (Ideal.ofBits .f32 0x3F800000#32) = _
    rw [iota_single_apply]
    exact select_sgn (i 1)
  rw [hsel]
  -- the lane sum, kept as a column, in front of the features
  rw [Cert.LibRowOps.rowsum (mulf (mulf v (fun i => sgn (i 1))) v) hred hφ hacc]
  have hc : ∀ (p : Fin T) (u : Fin 1),
      shapeCast ⟨2, ![T, 1]⟩ (fun j : (⟨1, ![T]⟩ : Shape).Idx => ∑ k : Fin 4, mulf (mulf v (fun i => sgn (i 1))) v (ix2 (j 0) k)) hcol (ix2 p u)
        = mnorm v p := fun p u => Cert.LibColumnCasts.cast_column _ hcol p u
  have hcatf := concat_feat v e _ hc hcat
  -- a change of float format is the identity on the extended reals
  have htr : ∀ {s : Shape} (x : FVec Ideal s .f32), (truncf .bf16 x hlt : FVec Ideal s .bf16) = x := fun x => rfl
  rw [hcatf, htr (feat v e), htr wa]
  have hm1 : ∀ (X : FVec Ideal ⟨2, ![T, 15]⟩ .bf16) (W : FVec Ideal ⟨2, ![15, 14]⟩ .bf16),
      matmul d1 none X W (constant ⟨2, ![T, 14]⟩ .f32 0x00000000#32) = MM X W :=
    fun X W => matmul_zero_eq d1 h1lb h1ln h1lc h1rb h1rn h1rc none X W
  rw [hm1]
  rw [Cert.LibRowOps.row_bcast ba hrow hbr, Cert.LibRowOps.row_bcast bb hrow hbr]
  have h1 : maximumf (addf (MM (feat v e) wa) (fun i => ba (ix1 (i 1)))) (broadcast ⟨2, ![T, 14]⟩ (Scalar.ofBits .f32 0x00000000#32 : Ideal .f32))
      = relu (layer (feat v e) wa ba) := rfl
  rw [h1, htr (relu (layer (feat v e) wa ba)), htr wb]
  have hm2 : ∀ (X : FVec Ideal ⟨2, ![T, 14]⟩ .bf16) (W : FVec Ideal ⟨2, ![14, 14]⟩ .bf16),
      matmul d2 none X W (constant ⟨2, ![T, 14]⟩ .f32 0x00000000#32) = MM X W :=
    fun X W => matmul_zero_eq d2 h2lb h2ln h2lc h2rb h2rn h2rc none X W
  rw [hm2]
  rfl

end Cert.Lorentz

end
-- ==== Proof.KPayload.lean ====
/-
  What each kernel body stores, as the row network of the blocks it loaded: the printed arithmetic of a body is the
  vector unit's reading of the network on the body's rows (6400 rows per grid point of the edge kernel, 5000 of the
  node kernel).
-/
import proofs.«139659_j69861938037251_1_alg».proof.Proof.Gen.KernelIdeal.Skeleton
import proofs.«139659_j69861938037251_1_alg».proof.Proof.VecMlp

noncomputable section

namespace Cert.KernelIdeal.Hand

open Idealize.ShloMosaic Idealize.SL.Sem
open Cert.KernelIdeal Cert.KernelIdeal.Gen

variable [Facts]

/-- The edge kernel's stored value is the network on its 6400 rows. -/
theorem pay0_eq (x0 : Vec Ideal S6400x4 .f32) (x1 : Vec Ideal S6400x14 .f32) (x2 : Vec Ideal S15x14 .f32) (x3 : Vec Ideal S14 .f32)
    (x4 : Vec Ideal S14x14 .f32) (x5 : Vec Ideal S14 .f32) :
    k0_pay1 x0 x1 x2 x3 x4 x5 = Cert.Lorentz.mlp x0 x1 x2 x3 x4 x5 := by
  unfold k0_pay1
  have hs := shapeCast_self x0 shapeCasts_S6400x4_S6400x4
  dsimp only
  rw [hs]
  exact Cert.Lorentz.vec_mlp (T := 6400) dot_S6400x15_S15x14_S6400x14_1_0_0_1_n_n rfl rfl rfl rfl rfl rfl
    dot_S6400x14_S14x14_S6400x14_1_0_0_1_n_n rfl rfl rfl rfl rfl rfl
    iota_S6400x4_d1_w32 reduces_S6400x4_S6400 (.inl rfl) rfl shapeCasts_S6400_S6400x1
    concatenates_S6400x1_S6400x14_S6400x15_d1 bitsLt_bf16_f32 shapeCasts_S14_S1x14 broadcasts_S1x14_S6400x14
    x0 x1 x2 x3 x4 x5

/-- The node kernel's stored value is the network on its 5000 rows. -/
theorem pay1_eq (x0 : Vec Ideal S5000x4 .f32) (x1 : Vec Ideal S5000x14 .f32) (x2 : Vec Ideal S15x14 .f32) (x3 : Vec Ideal S14 .f32)
    (x4 : Vec Ideal S14x14 .f32) (x5 : Vec Ideal S14 .f32) :
    k1_pay1 x0 x1 x2 x3 x4 x5 = Cert.Lorentz.mlp x0 x1 x2 x3 x4 x5 := by
  unfold k1_pay1
  have hs := shapeCast_self x1 shapeCasts_S5000x14_S5000x14
  dsimp only
  rw [hs]
  exact Cert.Lorentz.vec_mlp (T := 5000) dot_S5000x15_S15x14_S5000x14_1_0_0_1_n_n rfl rfl rfl rfl rfl rfl
    dot_S5000x14_S14x14_S5000x14_1_0_0_1_n_n rfl rfl rfl rfl rfl rfl
    iota_S5000x4_d1_w32 reduces_S5000x4_S5000 (.inl rfl) rfl shapeCasts_S5000_S5000x1
    concatenates_S5000x1_S5000x14_S5000x15_d1 bitsLt_bf16_f32 shapeCasts_S14_S1x14 broadcasts_S1x14_S5000x14
    x0 x1 x2 x3 x4 x5

end Cert.KernelIdeal.Hand

end
-- ==== Proof.MlpRows.lean ====
/-
  The row network is local to the row: the output at (p, q) is a function of row p of the four-vectors, row p of
  the further features, the weights and column q.  So the same network run on a block of consecutive rows gives,
  at a row of the block, what the whole array's network gives at that row of the array: this is what lets a grid of
  row blocks be read as one array.
-/
import proofs.«139659_j69861938037251_1_alg».proof.Proof.MlpSpec

noncomputable section

open scoped BigOperators

namespace Cert.Lorentz

open Idealize.ShloMosaic Idealize.ShloMosaic.ValueIdx Cert.LibMatmul

/-- Rows that agree give the same Minkowski square. -/
theorem mnorm_congr {T T' : Nat} (v : (⟨2, ![T, 4]⟩ : Shape).Idx → EReal) (v' : (⟨2, ![T', 4]⟩ : Shape).Idx → EReal)
    (p : Fin T) (p' : Fin T') (hv : ∀ l : Fin 4, v (ix2 p l) = v' (ix2 p' l)) : mnorm v p = mnorm v' p' := by
  unfold mnorm
  exact Finset.sum_congr rfl fun l _ => by rw [hv l]

/-- Rows that agree give the same fifteen features. -/
theorem feat_congr {T T' : Nat} (v : (⟨2, ![T, 4]⟩ : Shape).Idx → EReal) (v' : (⟨2, ![T', 4]⟩ : Shape).Idx → EReal)
    (e : (⟨2, ![T, 14]⟩ : Shape).Idx → EReal) (e' : (⟨2, ![T', 14]⟩ : Shape).Idx → EReal)
    (p : Fin T) (p' : Fin T') (hv : ∀ l : Fin 4, v (ix2 p l) = v' (ix2 p' l))
    (he : ∀ q : Fin 14, e (ix2 p q) = e' (ix2 p' q)) (k : Fin 15) :
    feat v e (ix2 p k) = feat v' e' (ix2 p' k) := by
  unfold feat
  by_cases h0 : k.val = 0
  · rw [dif_pos (show ((ix2 p k : (⟨2, ![T, 15]⟩ : Shape).Idx) 1).val = 0 from h0),
      dif_pos (show ((ix2 p' k : (⟨2, ![T', 15]⟩ : Shape).Idx) 1).val = 0 from h0)]
    exact mnorm_congr v v' p p' hv
  · rw [dif_neg (show ¬ ((ix2 p k : (⟨2, ![T, 15]⟩ : Shape).Idx) 1).val = 0 from h0),
      dif_neg (show ¬ ((ix2 p' k : (⟨2, ![T', 15]⟩ : Shape).Idx) 1).val = 0 from h0)]
    exact he _

/-- The network's output at a row depends on that row only. -/
theorem mlp_congr {T T' : Nat} (v : (⟨2, ![T, 4]⟩ : Shape).Idx → EReal) (v' : (⟨2, ![T', 4]⟩ : Shape).Idx → EReal)
    (e : (⟨2, ![T, 14]⟩ : Shape).Idx → EReal) (e' : (⟨2, ![T', 14]⟩ : Shape).Idx → EReal)
    (wa : (⟨2, ![15, 14]⟩ : Shape).Idx → EReal) (ba : (⟨1, ![14]⟩ : Shape).Idx → EReal)
    (wb : (⟨2, ![14, 14]⟩ : Shape).Idx → EReal) (bb : (⟨1, ![14]⟩ : Shape).Idx → EReal)
    (p : Fin T) (p' : Fin T') (q : Fin 14) (hv : ∀ l : Fin 4, v (ix2 p l) = v' (ix2 p' l))
    (he : ∀ q : Fin 14, e (ix2 p q) = e' (ix2 p' q)) :
    mlp v e wa ba wb bb (ix2 p q) = mlp v' e' wa ba wb bb (ix2 p' q) := by
  have h1 : ∀ k : Fin 14, relu (layer (feat v e) wa ba) (ix2 p k) = relu (layer (feat v' e') wa ba) (ix2 p' k) := by
    intro k
    show max (MM (feat v e) wa (ix2 p k) + ba (ix1 k)) _ = max (MM (feat v' e') wa (ix2 p' k) + ba (ix1 k)) _
    rw [MM_apply, MM_apply]
    rw [Finset.sum_congr rfl fun j _ => by rw [feat_congr v v' e e' p p' hv he j]]
  show MM (relu (layer (feat v e) wa ba)) wb (ix2 p q) + bb (ix1 q) = MM (relu (layer (feat v' e') wa ba)) wb (ix2 p' q) + bb (ix1 q)
  rw [MM_apply, MM_apply]
  rw [Finset.sum_congr rfl fun k _ => by rw [h1 k]]

end Cert.Lorentz

end
-- ==== Proof.KRegion0.lean ====
/-
  Region 0 read as one array.  The grid walks the rows in 1000 blocks of 6400: at point t every row-shaped window
  (the four-vectors, the further features, the result) sits at block index (t, 0) and the weights and biases at
  block index zero, whole.  So what point t writes back is rows 6400·t … 6400·t + 6399 of ONE array, the row
  network of the arrays the region found; the blocks tile the result array (row r is in block r / 6400), hence
  after the last point the result array holds the network of the region's input arrays, row by row.
-/
import proofs.«139659_j69861938037251_1_alg».proof.Proof.Gen.KernelIdeal.Frame
import proofs.«139659_j69861938037251_1_alg».proof.Proof.KPayload
import proofs.«139659_j69861938037251_1_alg».proof.Proof.MlpRows
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz2_0 : (![0, 0] : Fin 2 → Nat) = fun _ => 0 := funext fun a => by fin_cases a <;> rfl
theorem hz1_0 : (![0] : Fin 1 → Nat) = fun _ => 0 := funext fun a => by fin_cases a <;> rfl

/-- The region's result as one array: the row network of the arrays the region finds. -/
def G0 (c : Dev nD) : S6400000x14.Idx → EReal :=
  Cert.Lorentz.mlp (V c main_v10 : S6400000x4.Idx → EReal) (V c main_arg2 : S6400000x14.Idx → EReal)
    (V c main_arg5 : S15x14.Idx → EReal) (V c main_arg6 : S14.Idx → EReal)
    (V c main_arg7 : S14x14.Idx → EReal) (V c main_arg8 : S14.Idx → EReal)

/-- The printed index maps over the grid: the row-shaped windows at block (t, 0), the weights at block zero. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_6.index t (0 : Fin 2) = t.val ∧ win0_6.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0 :=
  (by decide +kernel : ∀ t : Fin grid0.N, _)

/-- A weight window's block is the whole array, at every point. -/
theorem wblk0_2 (c : Dev nD) (t : Fin cfg0.N) : (iblk0 V c 2 t : S15x14.Idx → EReal) = V c main_arg5 := by
  obtain ⟨-, -, -, -, -, -, e0, e1, -, -, -, -⟩ := idx_facts0 t
  funext y
  unfold iblk0
  rw [View.read_apply]
  show V c main_arg5 (((cfg0.win 2).blk t).view.emb y) = V c main_arg5 y
  refine congrArg _ (funext fun a => Fin.ext ?_)
  match a with
  | ⟨0, _⟩ => show win0_2.index t (0 : Fin 2) * 15 + 1 * (y 0).val = (y 0).val; rw [e0]; omega
  | ⟨1, _⟩ => show win0_2.index t (1 : Fin 2) * 14 + 1 * (y 1).val = (y 1).val; rw [e1]; omega

theorem wblk0_3 (c : Dev nD) (t : Fin cfg0.N) : (iblk0 V c 3 t : S14.Idx → EReal) = V c main_arg6 := by
  obtain ⟨-, -, -, -, -, -, -, -, e0, -, -, -⟩ := idx_facts0 t
  funext y
  unfold iblk0
  rw [View.read_apply]
  show V c main_arg6 (((cfg0.win 3).blk t).view.emb y) = V c main_arg6 y
  refine congrArg _ (funext fun a => Fin.ext ?_)
  match a with
  | ⟨0, _⟩ => show win0_3.index t (0 : Fin 1) * 14 + 1 * (y 0).val = (y 0).val; rw [e0]; omega

theorem wblk0_4 (c : Dev nD) (t : Fin cfg0.N) : (iblk0 V c 4 t : S14x14.Idx → EReal) = V c main_arg7 := by
  obtain ⟨-, -, -, -, -, -, -, -, -, e0, e1, -⟩ := idx_facts0 t
  funext y
  unfold iblk0
  rw [View.read_apply]
  show V c main_arg7 (((cfg0.win 4).blk t).view.emb y) = V c main_arg7 y
  refine congrArg _ (funext fun a => Fin.ext ?_)
  match a with
  | ⟨0, _⟩ => show win0_4.index t (0 : Fin 2) * 14 + 1 * (y 0).val = (y 0).val; rw [e0]; omega
  | ⟨1, _⟩ => show win0_4.index t (1 : Fin 2) * 14 + 1 * (y 1).val = (y 1).val; rw [e1]; omega

theorem wblk0_5 (c : Dev nD) (t : Fin cfg0.N) : (iblk0 V c 5 t : S14.Idx → EReal) = V c main_arg8 := by
  obtain ⟨-, -, -, -, -, -, -, -, -, -, -, e0⟩ := idx_facts0 t
  funext y
  unfold iblk0
  rw [View.read_apply]
  show V c main_arg8 (((cfg0.win 5).blk t).view.emb y) = V c main_arg8 y
  refine congrArg _ (funext fun a => Fin.ext ?_)
  match a with
  | ⟨0, _⟩ => show win0_5.index t (0 : Fin 1) * 14 + 1 * (y 0).val = (y 0).val; rw [e0]; omega

/-- Row p of the four-vector window's block at point t is row 6400·t + p of its array. -/
theorem rblk0_0 (c : Dev nD) (t : Fin cfg0.N) (p : Fin 6400) (l : Fin 4) (r : Fin 6400000) (hr : r.val = 6400 * t.val + p.val) :
    (iblk0 V c 0 t : S6400x4.Idx → EReal) (ix2 p l) = (V c main_v10 : S6400000x4.Idx → EReal) (ix2 r l) := by
  obtain ⟨e0, e1, -, -, -, -, -, -, -, -, -, -⟩ := idx_facts0 t
  unfold iblk0
  rw [View.read_apply]
  show V c main_v10 (((cfg0.win 0).blk t).view.emb (ix2 p l)) = V c main_v10 (ix2 r l)
  refine congrArg _ (funext fun a => Fin.ext ?_)
  match a with
  | ⟨0, _⟩ => show win0_0.index t (0 : Fin 2) * 6400 + 1 * p.val = r.val; rw [e0, hr]; omega
  | ⟨1, _⟩ => show win0_0.index t (1 : Fin 2) * 4 + 1 * l.val = l.val; rw [e1]; omega

/-- Row p of the feature window's block at point t is row 6400·t + p of its array. -/
theorem rblk0_1 (c : Dev nD) (t : Fin cfg0.N) (p : Fin 6400) (q : Fin 14) (r : Fin 6400000) (hr : r.val = 6400 * t.val + p.val) :
    (iblk0 V c 1 t : S6400x14.Idx → EReal) (ix2 p q) = (V c main_arg2 : S6400000x14.Idx → EReal) (ix2 r q) := by
  obtain ⟨-, -, e0, e1, -, -, -, -, -, -, -, -⟩ := idx_facts0 t
  unfold iblk0
  rw [View.read_apply]
  show V c main_arg2 (((cfg0.win 1).blk t).view.emb (ix2 p q)) = V c main_arg2 (ix2 r q)
  refine congrArg _ (funext fun a => Fin.ext ?_)
  match a with
  | ⟨0, _⟩ => show win0_1.index t (0 : Fin 2) * 6400 + 1 * p.val = r.val; rw [e0, hr]; omega
  | ⟨1, _⟩ => show win0_1.index t (1 : Fin 2) * 14 + 1 * q.val = q.val; rw [e1]; omega

/-- WHAT POINT t WRITES BACK is block t of the one array G0. -/
theorem flushed0_eq (c : Dev nD) (t : Fin cfg0.N) :
    (dat0 V c).flushed 6 t = ((cfg0.win 6).blk t).view.read (Elt Ideal) (G0 V c) := by
  have hN : cfg0.N = 1000 := N_0
  show (cfg0.win 6).cut (grid0.coords t) ((dat0 V c).after 6 t) = _
  rw [after0_6]
  unfold out0_6
  rw [View.canon_unit_zero hz2_0]
  simp only [View.ld_unit_zero (S := S6400x4) hz2_0, View.ld_unit_zero (S := S6400x14) hz2_0, View.ld_unit_zero (S := S15x14) hz2_0,
    View.ld_unit_zero (S := S14) hz1_0, View.ld_unit_zero (S := S14x14) hz2_0]
  rw [pay0_eq, wblk0_2, wblk0_3, wblk0_4, wblk0_5]
  obtain ⟨-, -, -, -, e0, e1, -, -, -, -, -, -⟩ := idx_facts0 t
  funext j
  obtain ⟨p, q, rfl⟩ : ∃ (p : Fin 6400) (q : Fin 14), j = ix2 p q := ⟨j 0, j 1, eq_ix2 j⟩
  have ht : t.val < 1000 := by have := t.isLt; omega
  have hemb : ((cfg0.win 6).blk t).view.emb (ix2 p q) = (ix2 (⟨6400 * t.val + p.val, by have := p.isLt; omega⟩ : Fin 6400000) q : S6400000x14.Idx) := by
    funext a; apply Fin.ext
    match a with
    | ⟨0, _⟩ => show win0_6.index t (0 : Fin 2) * 6400 + 1 * p.val = 6400 * t.val + p.val; rw [e0]; omega
    | ⟨1, _⟩ => show win0_6.index t (1 : Fin 2) * 14 + 1 * q.val = q.val; rw [e1]; omega
  rw [View.read_apply, hemb]
  unfold G0
  exact Cert.Lorentz.mlp_congr _ _ _ _ _ _ _ _ p _ q
    (fun l => rblk0_0 V c t p l _ rfl) (fun q' => rblk0_1 V c t p q' _ rfl)

/-- An index of the result array is in point t's block iff each coordinate is in the block's range. -/
theorem mem_blk0 (t : Fin cfg0.N) (i : S6400000x14.Idx) :
    i ∈ ((cfg0.win 6).blk t).view.set ↔ ∀ a : Fin 2, win0_6.index t a * S6400x14.size a ≤ (i a).val ∧ (i a).val < win0_6.index t a * S6400x14.size a + S6400x14.size a := by
  show i ∈ ((View.whole main_v11).slice (win0_6.rect t)).set ↔ _
  rw [View.set_slice_whole, Rect.mem_set_unit]
  exact Iff.rfl

/-- THE RESULT ARRAY after the region: the row network of the arrays the region found. -/
theorem final0 (c : Dev nD) : (dat0 V c).arrAt 6 cfg0.N = G0 V c :=
  (dat0 V c).arrAt_eq_of_cover 6 (G0 V c) (fun t _ => flushed0_eq V c t) fun i => by
    have hN : cfg0.N = 1000 := N_0
    have hi0 : (i 0).val < 6400000 := (i 0).isLt
    have hi1 : (i 1).val < 14 := (i 1).isLt
    refine ⟨⟨(i 0).val / 6400, by rw [hN]; omega⟩, flush0_6 _, ?_⟩
    rw [mem_blk0]
    obtain ⟨-, -, -, -, e0, e1, -, -, -, -, -, -⟩ := idx_facts0 ⟨(i 0).val / 6400, by rw [hN]; omega⟩
    intro a
    match a with
    | ⟨0, _⟩ => show win0_6.index _ (0 : Fin 2) * 6400 ≤ (i 0).val ∧ (i 0).val < win0_6.index _ (0 : Fin 2) * 6400 + 6400; rw [e0]; show (i 0).val / 6400 * 6400 ≤ (i 0).val ∧ (i 0).val < (i 0).val / 6400 * 6400 + 6400; omega
    | ⟨1, _⟩ => show win0_6.index _ (1 : Fin 2) * 14 ≤ (i 1).val ∧ (i 1).val < win0_6.index _ (1 : Fin 2) * 14 + 14; rw [e1]; omega

end Cert.KernelIdeal.Hand

end
-- ==== Proof.KRegion1.lean ====
/-
  Region 1 read as one array.  The grid walks the rows in 20 blocks of 5000: at point t every row-shaped window
  (the four-vectors, the further features, the result) sits at block index (t, 0) and the weights and biases at
  block index zero, whole.  So what point t writes back is rows 5000·t … 5000·t + 4999 of ONE array, the row
  network of the arrays the region found; the blocks tile the result array (row r is in block r / 5000), hence
  after the last point the result array holds the network of the region's input arrays, row by row.
-/
import proofs.«139659_j69861938037251_1_alg».proof.Proof.Gen.KernelIdeal.Frame
import proofs.«139659_j69861938037251_1_alg».proof.Proof.KPayload
import proofs.«139659_j69861938037251_1_alg».proof.Proof.MlpRows
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz2_1 : (![0, 0] : Fin 2 → Nat) = fun _ => 0 := funext fun a => by fin_cases a <;> rfl
theorem hz1_1 : (![0] : Fin 1 → Nat) = fun _ => 0 := funext fun a => by fin_cases a <;> rfl

/-- The region's result as one array: the row network of the arrays the region finds. -/
def G1 (c : Dev nD) : S100000x14.Idx → EReal :=
  Cert.Lorentz.mlp (V c main_arg0 : S100000x4.Idx → EReal) (V c main_v22 : S100000x14.Idx → EReal)
    (V c main_arg9 : S15x14.Idx → EReal) (V c main_arg10 : S14.Idx → EReal)
    (V c main_arg11 : S14x14.Idx → EReal) (V c main_arg12 : S14.Idx → EReal)

/-- The printed index maps over the grid: the row-shaped windows at block (t, 0), the weights at block zero. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_6.index t (0 : Fin 2) = t.val ∧ win1_6.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0 :=
  (by decide +kernel : ∀ t : Fin grid1.N, _)

/-- A weight window's block is the whole array, at every point. -/
theorem wblk1_2 (c : Dev nD) (t : Fin cfg1.N) : (iblk1 V c 2 t : S15x14.Idx → EReal) = V c main_arg9 := by
  obtain ⟨-, -, -, -, -, -, e0, e1, -, -, -, -⟩ := idx_facts1 t
  funext y
  unfold iblk1
  rw [View.read_apply]
  show V c main_arg9 (((cfg1.win 2).blk t).view.emb y) = V c main_arg9 y
  refine congrArg _ (funext fun a => Fin.ext ?_)
  match a with
  | ⟨0, _⟩ => show win1_2.index t (0 : Fin 2) * 15 + 1 * (y 0).val = (y 0).val; rw [e0]; omega
  | ⟨1, _⟩ => show win1_2.index t (1 : Fin 2) * 14 + 1 * (y 1).val = (y 1).val; rw [e1]; omega

theorem wblk1_3 (c : Dev nD) (t : Fin cfg1.N) : (iblk1 V c 3 t : S14.Idx → EReal) = V c main_arg10 := by
  obtain ⟨-, -, -, -, -, -, -, -, e0, -, -, -⟩ := idx_facts1 t
  funext y
  unfold iblk1
  rw [View.read_apply]
  show V c main_arg10 (((cfg1.win 3).blk t).view.emb y) = V c main_arg10 y
  refine congrArg _ (funext fun a => Fin.ext ?_)
  match a with
  | ⟨0, _⟩ => show win1_3.index t (0 : Fin 1) * 14 + 1 * (y 0).val = (y 0).val; rw [e0]; omega

theorem wblk1_4 (c : Dev nD) (t : Fin cfg1.N) : (iblk1 V c 4 t : S14x14.Idx → EReal) = V c main_arg11 := by
  obtain ⟨-, -, -, -, -, -, -, -, -, e0, e1, -⟩ := idx_facts1 t
  funext y
  unfold iblk1
  rw [View.read_apply]
  show V c main_arg11 (((cfg1.win 4).blk t).view.emb y) = V c main_arg11 y
  refine congrArg _ (funext fun a => Fin.ext ?_)
  match a with
  | ⟨0, _⟩ => show win1_4.index t (0 : Fin 2) * 14 + 1 * (y 0).val = (y 0).val; rw [e0]; omega
  | ⟨1, _⟩ => show win1_4.index t (1 : Fin 2) * 14 + 1 * (y 1).val = (y 1).val; rw [e1]; omega

theorem wblk1_5 (c : Dev nD) (t : Fin cfg1.N) : (iblk1 V c 5 t : S14.Idx → EReal) = V c main_arg12 := by
  obtain ⟨-, -, -, -, -, -, -, -, -, -, -, e0⟩ := idx_facts1 t
  funext y
  unfold iblk1
  rw [View.read_apply]
  show V c main_arg12 (((cfg1.win 5).blk t).view.emb y) = V c main_arg12 y
  refine congrArg _ (funext fun a => Fin.ext ?_)
  match a with
  | ⟨0, _⟩ => show win1_5.index t (0 : Fin 1) * 14 + 1 * (y 0).val = (y 0).val; rw [e0]; omega

/-- Row p of the four-vector window's block at point t is row 5000·t + p of its array. -/
theorem rblk1_0 (c : Dev nD) (t : Fin cfg1.N) (p : Fin 5000) (l : Fin 4) (r : Fin 100000) (hr : r.val = 5000 * t.val + p.val) :
    (iblk1 V c 0 t : S5000x4.Idx → EReal) (ix2 p l) = (V c main_arg0 : S100000x4.Idx → EReal) (ix2 r l) := by
  obtain ⟨e0, e1, -, -, -, -, -, -, -, -, -, -⟩ := idx_facts1 t
  unfold iblk1
  rw [View.read_apply]
  show V c main_arg0 (((cfg1.win 0).blk t).view.emb (ix2 p l)) = V c main_arg0 (ix2 r l)
  refine congrArg _ (funext fun a => Fin.ext ?_)
  match a with
  | ⟨0, _⟩ => show win1_0.index t (0 : Fin 2) * 5000 + 1 * p.val = r.val; rw [e0, hr]; omega
  | ⟨1, _⟩ => show win1_0.index t (1 : Fin 2) * 4 + 1 * l.val = l.val; rw [e1]; omega

/-- Row p of the feature window's block at point t is row 5000·t + p of its array. -/
theorem rblk1_1 (c : Dev nD) (t : Fin cfg1.N) (p : Fin 5000) (q : Fin 14) (r : Fin 100000) (hr : r.val = 5000 * t.val + p.val) :
    (iblk1 V c 1 t : S5000x14.Idx → EReal) (ix2 p q) = (V c main_v22 : S100000x14.Idx → EReal) (ix2 r q) := by
  obtain ⟨-, -, e0, e1, -, -, -, -, -, -, -, -⟩ := idx_facts1 t
  unfold iblk1
  rw [View.read_apply]
  show V c main_v22 (((cfg1.win 1).blk t).view.emb (ix2 p q)) = V c main_v22 (ix2 r q)
  refine congrArg _ (funext fun a => Fin.ext ?_)
  match a with
  | ⟨0, _⟩ => show win1_1.index t (0 : Fin 2) * 5000 + 1 * p.val = r.val; rw [e0, hr]; omega
  | ⟨1, _⟩ => show win1_1.index t (1 : Fin 2) * 14 + 1 * q.val = q.val; rw [e1]; omega

/-- WHAT POINT t WRITES BACK is block t of the one array G1. -/
theorem flushed1_eq (c : Dev nD) (t : Fin cfg1.N) :
    (dat1 V c).flushed 6 t = ((cfg1.win 6).blk t).view.read (Elt Ideal) (G1 V c) := by
  have hN : cfg1.N = 20 := N_1
  show (cfg1.win 6).cut (grid1.coords t) ((dat1 V c).after 6 t) = _
  rw [after1_6]
  unfold out1_6
  rw [View.canon_unit_zero hz2_1]
  simp only [View.ld_unit_zero (S := S5000x4) hz2_1, View.ld_unit_zero (S := S5000x14) hz2_1, View.ld_unit_zero (S := S15x14) hz2_1,
    View.ld_unit_zero (S := S14) hz1_1, View.ld_unit_zero (S := S14x14) hz2_1]
  rw [pay1_eq, wblk1_2, wblk1_3, wblk1_4, wblk1_5]
  obtain ⟨-, -, -, -, e0, e1, -, -, -, -, -, -⟩ := idx_facts1 t
  funext j
  obtain ⟨p, q, rfl⟩ : ∃ (p : Fin 5000) (q : Fin 14), j = ix2 p q := ⟨j 0, j 1, eq_ix2 j⟩
  have ht : t.val < 20 := by have := t.isLt; omega
  have hemb : ((cfg1.win 6).blk t).view.emb (ix2 p q) = (ix2 (⟨5000 * t.val + p.val, by have := p.isLt; omega⟩ : Fin 100000) q : S100000x14.Idx) := by
    funext a; apply Fin.ext
    match a with
    | ⟨0, _⟩ => show win1_6.index t (0 : Fin 2) * 5000 + 1 * p.val = 5000 * t.val + p.val; rw [e0]; omega
    | ⟨1, _⟩ => show win1_6.index t (1 : Fin 2) * 14 + 1 * q.val = q.val; rw [e1]; omega
  rw [View.read_apply, hemb]
  unfold G1
  exact Cert.Lorentz.mlp_congr _ _ _ _ _ _ _ _ p _ q
    (fun l => rblk1_0 V c t p l _ rfl) (fun q' => rblk1_1 V c t p q' _ rfl)

/-- An index of the result array is in point t's block iff each coordinate is in the block's range. -/
theorem mem_blk1 (t : Fin cfg1.N) (i : S100000x14.Idx) :
    i ∈ ((cfg1.win 6).blk t).view.set ↔ ∀ a : Fin 2, win1_6.index t a * S5000x14.size a ≤ (i a).val ∧ (i a).val < win1_6.index t a * S5000x14.size a + S5000x14.size a := by
  show i ∈ ((View.whole main_v23).slice (win1_6.rect t)).set ↔ _
  rw [View.set_slice_whole, Rect.mem_set_unit]
  exact Iff.rfl

/-- THE RESULT ARRAY after the region: the row network of the arrays the region found. -/
theorem final1 (c : Dev nD) : (dat1 V c).arrAt 6 cfg1.N = G1 V c :=
  (dat1 V c).arrAt_eq_of_cover 6 (G1 V c) (fun t _ => flushed1_eq V c t) fun i => by
    have hN : cfg1.N = 20 := N_1
    have hi0 : (i 0).val < 100000 := (i 0).isLt
    have hi1 : (i 1).val < 14 := (i 1).isLt
    refine ⟨⟨(i 0).val / 5000, by rw [hN]; omega⟩, flush1_6 _, ?_⟩
    rw [mem_blk1]
    obtain ⟨-, -, -, -, e0, e1, -, -, -, -, -, -⟩ := idx_facts1 ⟨(i 0).val / 5000, by rw [hN]; omega⟩
    intro a
    match a with
    | ⟨0, _⟩ => show win1_6.index _ (0 : Fin 2) * 5000 ≤ (i 0).val ∧ (i 0).val < win1_6.index _ (0 : Fin 2) * 5000 + 5000; rw [e0]; show (i 0).val / 5000 * 5000 ≤ (i 0).val ∧ (i 0).val < (i 0).val / 5000 * 5000 + 5000; omega
    | ⟨1, _⟩ => show win1_6.index _ (1 : Fin 2) * 14 ≤ (i 1).val ∧ (i 1).val < win1_6.index _ (1 : Fin 2) * 14 + 14; rw [e1]; omega

end Cert.KernelIdeal.Hand

end
-- ==== Proof.KStages.lean ====
/-
  The host stretches of the kernel program's @main, as values: each definition below is the literal composition of
  the printed operations of one stretch (same functions, same side conditions by their field names, same order of
  operands), generic in the float values.

  gatherRows : the rows of the node array at the first row of the edge table (a negative index wrapped by the
               node count), one row per edge: what the first kernel reads           -- %0, %1, %c, %4 .. %10
  segMean    : the per-node sum of the first kernel's result at the second row of the edge table, divided by the
               per-node edge count clipped below at one: what the second kernel reads -- %2, %3, %cst, %12 .. %22
-/
import proofs.«139659_j69861938037251_1_alg».proof.KernelIdeal

noncomputable section

namespace Cert.KernelIdeal.Stages

open Idealize.ShloMosaic Idealize.SL.Sem
open Cert.KernelIdeal
open Cert.KernelIdeal.Facts₀ Cert.KernelIdeal.Facts

variable {F : FTy → Type} [FloatOps F] [Facts]

/-- %10 from %arg0 and %arg1: the first row of the edge table as a vector, each negative entry raised by the node
    count, as a column of start indices; the rows of the node array gathered at them. -/
def gatherRows (x : (⟨S100000x4, .f32⟩ : BufTy).Contents (Elt F)) (e : (⟨S2x6400000, .i32⟩ : BufTy).Contents (Elt F)) :
    (⟨S6400000x4, .f32⟩ : BufTy).Contents (Elt F) :=
  Host.gather gather_S100000x4_S6400000x1_S6400000x4_1_0_n_n_0_1_14 x
    (broadcastInDim S6400000x1 ![0] bcast_S6400000_S6400000x1_0
      (select
        (cmpi .slt
          (shapeCast S6400000 (extractStridedSlice S1x6400000 ![0, 0] e slices_S2x6400000_S1x6400000_0_0) shapeCasts_S1x6400000_S6400000)
          (broadcastInDim S6400000 ![] bcast_S_S6400000 (constantI S_ 32 0#32)))
        (addi
          (shapeCast S6400000 (extractStridedSlice S1x6400000 ![0, 0] e slices_S2x6400000_S1x6400000_0_0) shapeCasts_S1x6400000_S6400000)
          (broadcastInDim S6400000 ![] bcast_S_S6400000 (constantI S_ 32 100000#32)))
        (shapeCast S6400000 (extractStridedSlice S1x6400000 ![0, 0] e slices_S2x6400000_S1x6400000_0_0) shapeCasts_S1x6400000_S6400000)))

/-- %22 from %11 and %arg1: the second row of the edge table as a column of indices; the edge outputs added into a
    zero array at them; ones added into a zero vector at them, the maximum of one and that count, as a column
    repeated along the row; the quotient. -/
def segMean (eo : (⟨S6400000x14, .f32⟩ : BufTy).Contents (Elt F)) (e : (⟨S2x6400000, .i32⟩ : BufTy).Contents (Elt F)) :
    (⟨S100000x14, .f32⟩ : BufTy).Contents (Elt F) :=
  Host.divf
    (Host.scatterAdd scatter_S100000x14_S6400000x1_S6400000x14_1_0_0_1
      (broadcastInDim S100000x14 ![] bcast_S_S100000x14 (constant S_ .f32 0x00000000#32))
      (broadcastInDim S6400000x1 ![0] bcast_S6400000_S6400000x1_0
        (shapeCast S6400000 (extractStridedSlice S1x6400000 ![1, 0] e slices_S2x6400000_S1x6400000_1_0) shapeCasts_S1x6400000_S6400000))
      eo)
    (broadcastInDim S100000x14 ![0, 1] bcast_S100000x1_S100000x14_0_1
      (broadcastInDim S100000x1 ![0] bcast_S100000_S100000x1_0
        (maximumf
          (broadcastInDim S100000 ![] bcast_S_S100000 (id (constant S_ .f32 0x3F800000#32)))
          (Host.scatterAdd scatter_S100000_S6400000x1_S6400000_n_0_0_1
            (broadcastInDim S100000 ![] bcast_S_S100000 (constant S_ .f32 0x00000000#32))
            (broadcastInDim S6400000x1 ![0] bcast_S6400000_S6400000x1_0
              (shapeCast S6400000 (extractStridedSlice S1x6400000 ![1, 0] e slices_S2x6400000_S1x6400000_1_0) shapeCasts_S1x6400000_S6400000))
            (broadcastInDim S6400000 ![] bcast_S_S6400000 (constant S_ .f32 0x3F800000#32))))))

end Cert.KernelIdeal.Stages

end
-- ==== Proof.KHost.lean ====
/-
  The host stretches of the kernel program's @main, read back: what the first kernel finds at its entry (the gathered
  rows; its other operands as launched) and what the second finds (the per-node mean of the first kernel's result;
  its other operands as launched), each as the stretch's operations composed over the contents the stretch starts
  from.
-/
import proofs.«139659_j69861938037251_1_alg».proof.Proof.KStages
import proofs.«139659_j69861938037251_1_alg».proof.Proof.Gen.KernelIdeal.Frame

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F] [Facts]

/-! ## The stretches over any starting contents -/

attribute [local irreducible] Host.gather in
/-- The first stretch at the gathered rows' buffer: the stage's composition of the two arguments it reads. -/
theorem host0_v10 (V : Valuation τ sig (Elt F)) :
    after hostOps0 V (Proc.devRef .tc main_v10) = Stages.gatherRows (V (Proc.devRef .tc main_arg0)) (V (Proc.devRef .tc main_arg1)) := by
  after_results_simp
  rfl

attribute [local irreducible] Host.gather in
/-- The first stretch at the buffer of the edge table's second row, as a vector. -/
theorem host0_v3 (V : Valuation τ sig (Elt F)) :
    after hostOps0 V (Proc.devRef .tc main_v3)
      = shapeCast S6400000 (extractStridedSlice S1x6400000 ![1, 0] (V (Proc.devRef .tc main_arg1) : (⟨S2x6400000, .i32⟩ : BufTy).Contents (Elt F)) slices_S2x6400000_S1x6400000_1_0) shapeCasts_S1x6400000_S6400000 := by
  after_results_simp
  rfl

/-! The first stretch writes no argument. -/

theorem host0_arg0 (V : Valuation τ sig (Elt F)) :
    after hostOps0 V (Proc.devRef .tc main_arg0) = V (Proc.devRef .tc main_arg0) := by
  after_results_simp

theorem host0_arg2 (V : Valuation τ sig (Elt F)) :
    after hostOps0 V (Proc.devRef .tc main_arg2) = V (Proc.devRef .tc main_arg2) := by
  after_results_simp

theorem host0_arg5 (V : Valuation τ sig (Elt F)) :
    after hostOps0 V (Proc.devRef .tc main_arg5) = V (Proc.devRef .tc main_arg5) := by
  after_results_simp

theorem host0_arg6 (V : Valuation τ sig (Elt F)) :
    after hostOps0 V (Proc.devRef .tc main_arg6) = V (Proc.devRef .tc main_arg6) := by
  after_results_simp

theorem host0_arg7 (V : Valuation τ sig (Elt F)) :
    after hostOps0 V (Proc.devRef .tc main_arg7) = V (Proc.devRef .tc main_arg7) := by
  after_results_simp

theorem host0_arg8 (V : Valuation τ sig (Elt F)) :
    after hostOps0 V (Proc.devRef .tc main_arg8) = V (Proc.devRef .tc main_arg8) := by
  after_results_simp

theorem host0_arg9 (V : Valuation τ sig (Elt F)) :
    after hostOps0 V (Proc.devRef .tc main_arg9) = V (Proc.devRef .tc main_arg9) := by
  after_results_simp

theorem host0_arg10 (V : Valuation τ sig (Elt F)) :
    after hostOps0 V (Proc.devRef .tc main_arg10) = V (Proc.devRef .tc main_arg10) := by
  after_results_simp

theorem host0_arg11 (V : Valuation τ sig (Elt F)) :
    after hostOps0 V (Proc.devRef .tc main_arg11) = V (Proc.devRef .tc main_arg11) := by
  after_results_simp

theorem host0_arg12 (V : Valuation τ sig (Elt F)) :
    after hostOps0 V (Proc.devRef .tc main_arg12) = V (Proc.devRef .tc main_arg12) := by
  after_results_simp

attribute [local irreducible] Host.scatterAdd in
/-- The three stretches between the kernels at the mean's buffer, from contents whose buffer of the edge table's
    second row holds that row of `e`: the stage's composition of the first kernel's result and `e`. -/
theorem host1_v22 (X : Valuation τ sig (Elt F)) (e : (⟨S2x6400000, .i32⟩ : BufTy).Contents (Elt F))
    (h3 : X (Proc.devRef .tc main_v3)
      = shapeCast S6400000 (extractStridedSlice S1x6400000 ![1, 0] e slices_S2x6400000_S1x6400000_1_0) shapeCasts_S1x6400000_S6400000) :
    after hostOps1_2 (after hostOps1_1 (after hostOps1 X)) (Proc.devRef .tc main_v22) = Stages.segMean (X (Proc.devRef .tc main_v11)) e := by
  after_results_simp
  rw [h3]
  rfl

/-! The three stretches between the kernels write no argument. -/

theorem host1_arg0 (X : Valuation τ sig (Elt F)) :
    after hostOps1_2 (after hostOps1_1 (after hostOps1 X)) (Proc.devRef .tc main_arg0) = X (Proc.devRef .tc main_arg0) := by
  after_results_simp

theorem host1_arg9 (X : Valuation τ sig (Elt F)) :
    after hostOps1_2 (after hostOps1_1 (after hostOps1 X)) (Proc.devRef .tc main_arg9) = X (Proc.devRef .tc main_arg9) := by
  after_results_simp

theorem host1_arg10 (X : Valuation τ sig (Elt F)) :
    after hostOps1_2 (after hostOps1_1 (after hostOps1 X)) (Proc.devRef .tc main_arg10) = X (Proc.devRef .tc main_arg10) := by
  after_results_simp

theorem host1_arg11 (X : Valuation τ sig (Elt F)) :
    after hostOps1_2 (after hostOps1_1 (after hostOps1 X)) (Proc.devRef .tc main_arg11) = X (Proc.devRef .tc main_arg11) := by
  after_results_simp

theorem host1_arg12 (X : Valuation τ sig (Elt F)) :
    after hostOps1_2 (after hostOps1_1 (after hostOps1 X)) (Proc.devRef .tc main_arg12) = X (Proc.devRef .tc main_arg12) := by
  after_results_simp

/-! ## The two kernels' entry contents -/

variable (m : (ℓ : Loc nD τ sig) → Buf (Elt F) ℓ) (ρ : Dev nD → PrngReg)

/-- The first kernel's first operand: the gathered rows of the launch arguments. -/
theorem entry0_v10 (c : Dev nD) :
    V1 m ρ c main_v10 = Stages.gatherRows (m ((c : Thread nD τ).loc main_arg0)) (m ((c : Thread nD τ).loc main_arg1)) :=
  host0_v10 (W0 m ρ c)

theorem entry0_arg2 (c : Dev nD) : V1 m ρ c main_arg2 = m ((c : Thread nD τ).loc main_arg2) :=
  host0_arg2 (W0 m ρ c)

theorem entry0_arg5 (c : Dev nD) : V1 m ρ c main_arg5 = m ((c : Thread nD τ).loc main_arg5) :=
  host0_arg5 (W0 m ρ c)

theorem entry0_arg6 (c : Dev nD) : V1 m ρ c main_arg6 = m ((c : Thread nD τ).loc main_arg6) :=
  host0_arg6 (W0 m ρ c)

theorem entry0_arg7 (c : Dev nD) : V1 m ρ c main_arg7 = m ((c : Thread nD τ).loc main_arg7) :=
  host0_arg7 (W0 m ρ c)

theorem entry0_arg8 (c : Dev nD) : V1 m ρ c main_arg8 = m ((c : Thread nD τ).loc main_arg8) :=
  host0_arg8 (W0 m ρ c)

/-- The second kernel's second operand: the mean of the first kernel's result (its output array as the first region
    leaves it) over the launch edge table. The buffer of the table's second row is no array of the first region, so
    it is as the first stretch left it. -/
theorem entry1_v22 (c : Dev nD) :
    V5 m ρ c main_v22 = Stages.segMean (W2 m ρ c (Proc.devRef .tc main_v11)) (m ((c : Thread nD τ).loc main_arg1)) :=
  host1_v22 (W2 m ρ c) (m ((c : Thread nD τ).loc main_arg1))
    ((W2_of_ne m ρ c main_v3 (by decide)).trans (host0_v3 (W0 m ρ c)))

/-- No stretch writes it and it is no array of the first region. -/
theorem entry1_arg0 (c : Dev nD) : V5 m ρ c main_arg0 = m ((c : Thread nD τ).loc main_arg0) :=
  (host1_arg0 (W2 m ρ c)).trans ((W2_of_ne m ρ c main_arg0 (by decide)).trans (host0_arg0 (W0 m ρ c)))

/-- No stretch writes it and it is no array of the first region. -/
theorem entry1_arg9 (c : Dev nD) : V5 m ρ c main_arg9 = m ((c : Thread nD τ).loc main_arg9) :=
  (host1_arg9 (W2 m ρ c)).trans ((W2_of_ne m ρ c main_arg9 (by decide)).trans (host0_arg9 (W0 m ρ c)))

/-- No stretch writes it and it is no array of the first region. -/
theorem entry1_arg10 (c : Dev nD) : V5 m ρ c main_arg10 = m ((c : Thread nD τ).loc main_arg10) :=
  (host1_arg10 (W2 m ρ c)).trans ((W2_of_ne m ρ c main_arg10 (by decide)).trans (host0_arg10 (W0 m ρ c)))

/-- No stretch writes it and it is no array of the first region. -/
theorem entry1_arg11 (c : Dev nD) : V5 m ρ c main_arg11 = m ((c : Thread nD τ).loc main_arg11) :=
  (host1_arg11 (W2 m ρ c)).trans ((W2_of_ne m ρ c main_arg11 (by decide)).trans (host0_arg11 (W0 m ρ c)))

/-- No stretch writes it and it is no array of the first region. -/
theorem entry1_arg12 (c : Dev nD) : V5 m ρ c main_arg12 = m ((c : Thread nD τ).loc main_arg12) :=
  (host1_arg12 (W2 m ρ c)).trans ((W2_of_ne m ρ c main_arg12 (by decide)).trans (host0_arg12 (W0 m ρ c)))

end Cert.KernelIdeal.Hand

end
-- ==== Proof.KValue.lean ====
/-
  The kernel program's result as one function of its arguments.  Reading the boundaries of the run backwards: the
  result buffer is the node kernel's output array, the row network of the node array and the mean; the mean is the
  host's per-node average of the edge kernel's output array; that array is the row network of the gathered rows
  and the edge attributes; the gathered rows are the host's gather of the node array at the edges' sources; the
  weights and biases reach both kernels as launched.
-/
import proofs.«139659_j69861938037251_1_alg».proof.Proof.KRun
import proofs.«139659_j69861938037251_1_alg».proof.Proof.KRegion0
import proofs.«139659_j69861938037251_1_alg».proof.Proof.KRegion1
import proofs.«139659_j69861938037251_1_alg».proof.Proof.KHost

noncomputable section

namespace Cert.KernelIdeal.Hand

open Idealize.ShloMosaic Idealize.ShloMosaic.TcCoe Idealize.SL.Sem
open Cert.KernelIdeal Cert.KernelIdeal.Gen

/-- The kernel program's result from its arguments: the network per node on the node array and the per-node mean
    of the network per edge on the gathered rows and the edge attributes. -/
def kernelOut (x : (⟨S100000x4, .f32⟩ : BufTy).Contents (Elt Ideal)) (e : (⟨S2x6400000, .i32⟩ : BufTy).Contents (Elt Ideal))
    (ea : (⟨S6400000x14, .f32⟩ : BufTy).Contents (Elt Ideal))
    (w1a : (⟨S15x14, .f32⟩ : BufTy).Contents (Elt Ideal)) (b1a : (⟨S14, .f32⟩ : BufTy).Contents (Elt Ideal))
    (w1b : (⟨S14x14, .f32⟩ : BufTy).Contents (Elt Ideal)) (b1b : (⟨S14, .f32⟩ : BufTy).Contents (Elt Ideal))
    (w2a : (⟨S15x14, .f32⟩ : BufTy).Contents (Elt Ideal)) (b2a : (⟨S14, .f32⟩ : BufTy).Contents (Elt Ideal))
    (w2b : (⟨S14x14, .f32⟩ : BufTy).Contents (Elt Ideal)) (b2b : (⟨S14, .f32⟩ : BufTy).Contents (Elt Ideal)) :
    (⟨S100000x14, .f32⟩ : BufTy).Contents (Elt Ideal) :=
  Cert.Lorentz.mlp x (Stages.segMean (F := Ideal) (Cert.Lorentz.mlp (Stages.gatherRows (F := Ideal) x e) ea w1a b1a w1b b1b) e) w2a b2a w2b b2b

variable (m : (ℓ : Loc nD τ sig) → Buf (Elt Ideal) ℓ) (ρ : Dev nD → PrngReg)

/-- The contents the last region leaves in the result buffer are that function of the launch contents. -/
theorem result_eq (c : Dev nD) :
    W6 m ρ c (Proc.devRef .tc main_v23) = kernelOut (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have h6 : W6 m ρ c (Proc.devRef .tc main_v23) = (dat1 (V5 m ρ) c).arrAt 6 cfg1.N := W6_arr m ρ c 6
  rw [h6, final1 (V5 m ρ) c]
  unfold G1
  rw [entry1_arg0 m ρ c, entry1_v22 m ρ c, entry1_arg9 m ρ c, entry1_arg10 m ρ c, entry1_arg11 m ρ c, entry1_arg12 m ρ c]
  have h2 : W2 m ρ c (Proc.devRef .tc main_v11) = (dat0 (V1 m ρ) c).arrAt 6 cfg0.N := W2_arr m ρ c 6
  rw [h2, final0 (V1 m ρ) c]
  unfold G0
  rw [entry0_v10 m ρ c, entry0_arg2 m ρ c, entry0_arg5 m ρ c, entry0_arg6 m ρ c, entry0_arg7 m ρ c, entry0_arg8 m ρ c]
  rfl

end Cert.KernelIdeal.Hand

end
-- ==== Proof.HostMlp.lean ====
/-
  The host's reading of the row network is the function `mlp`: the signs come from a four-entry table broadcast
  to every row, the Minkowski square is a reduce over the last axis started from the zero word, kept as a column
  by a broadcast along axis 0 and set in front of the fourteen features; each layer is a dot_general contracting
  the features with the weights' rows plus the bias broadcast to every row; between the layers a maximum against
  a zero splat.  For any number of rows.
-/
import proofs.«139659_j69861938037251_1_alg».proof.Proof.MlpSpec

noncomputable section

open scoped BigOperators

namespace Cert.Lorentz

open Idealize.ShloMosaic Idealize.ShloMosaic.ValueIdx Cert.LibMatmul

theorem host_mlp {T : Nat}
    (d1 : DotDims ⟨2, ![T, 15]⟩ ⟨2, ![15, 14]⟩ ⟨2, ![T, 14]⟩)
    (h1lb : d1.lhsBatch = []) (h1ln : d1.lhsNonContracting = [0]) (h1lc : d1.lhsContracting = [1])
    (h1rb : d1.rhsBatch = []) (h1rn : d1.rhsNonContracting = [1]) (h1rc : d1.rhsContracting = [0])
    (d2 : DotDims ⟨2, ![T, 14]⟩ ⟨2, ![14, 14]⟩ ⟨2, ![T, 14]⟩)
    (h2lb : d2.lhsBatch = []) (h2ln : d2.lhsNonContracting = [0]) (h2lc : d2.lhsContracting = [1])
    (h2rb : d2.rhsBatch = []) (h2rn : d2.rhsNonContracting = [1]) (h2rc : d2.rhsContracting = [0])
    (c4 : (⟨1, ![4]⟩ : Shape).Idx → EReal) (hc4 : ∀ l : Fin 4, c4 (ix1 l) = sgn l)
    (hb4 : (⟨1, ![4]⟩ : Shape).BroadcastsInDim ⟨2, ![1, 4]⟩ (![1] : Fin 1 → Fin 2))
    (hb14 : (⟨2, ![1, 4]⟩ : Shape).BroadcastsInDim ⟨2, ![T, 4]⟩ (![0, 1] : Fin 2 → Fin 2))
    (hr : (⟨2, ![T, 4]⟩ : Shape).ReducesTo [1] ⟨1, ![T]⟩) (hred : (⟨2, ![T, 4]⟩ : Shape).Reduces [1] ⟨1, ![T]⟩)
    (hS : 0 < (⟨0, ![]⟩ : Shape).numel)
    (hcol : (⟨1, ![T]⟩ : Shape).BroadcastsInDim ⟨2, ![T, 1]⟩ (![0] : Fin 1 → Fin 2))
    (hcat : Shape.Concatenates [(⟨2, ![T, 1]⟩ : Shape), ⟨2, ![T, 14]⟩] ⟨2, ![T, 15]⟩ 1)
    (hbv : (⟨1, ![14]⟩ : Shape).BroadcastsInDim ⟨2, ![1, 14]⟩ (![1] : Fin 1 → Fin 2))
    (hbr : (⟨2, ![1, 14]⟩ : Shape).BroadcastsInDim ⟨2, ![T, 14]⟩ (![0, 1] : Fin 2 → Fin 2))
    (hz : (⟨0, ![]⟩ : Shape).BroadcastsInDim ⟨2, ![T, 14]⟩ (![] : Fin 0 → Fin 2))
    (v : FVec Ideal ⟨2, ![T, 4]⟩ .f32) (e : FVec Ideal ⟨2, ![T, 14]⟩ .f32)
    (wa : FVec Ideal ⟨2, ![15, 14]⟩ .f32) (ba : FVec Ideal ⟨1, ![14]⟩ .f32)
    (wb : FVec Ideal ⟨2, ![14, 14]⟩ .f32) (bb : FVec Ideal ⟨1, ![14]⟩ .f32) :
    addf (Host.dotGeneral d2 none
        (maximumf (addf (Host.dotGeneral d1 none
              (concatenate ⟨2, ![T, 15]⟩ 1 [⟨⟨2, ![T, 1]⟩, broadcastInDim ⟨2, ![T, 1]⟩ (![0] : Fin 1 → Fin 2) hcol
                  (Host.reduceAdd (mulf (mulf v (broadcastInDim ⟨2, ![T, 4]⟩ (![0, 1] : Fin 2 → Fin 2) hb14 (broadcastInDim ⟨2, ![1, 4]⟩ (![1] : Fin 1 → Fin 2) hb4 c4))) v)
                    (constant (F := Ideal) ⟨0, ![]⟩ .f32 0x00000000#32) hr hS)⟩, ⟨⟨2, ![T, 14]⟩, e⟩] hcat) wa)
            (broadcastInDim ⟨2, ![T, 14]⟩ (![0, 1] : Fin 2 → Fin 2) hbr (broadcastInDim ⟨2, ![1, 14]⟩ (![1] : Fin 1 → Fin 2) hbv ba)))
          (broadcastInDim ⟨2, ![T, 14]⟩ (![] : Fin 0 → Fin 2) hz (constant (F := Ideal) ⟨0, ![]⟩ .f32 0x00000000#32))) wb)
      (broadcastInDim ⟨2, ![T, 14]⟩ (![0, 1] : Fin 2 → Fin 2) hbr (broadcastInDim ⟨2, ![1, 14]⟩ (![1] : Fin 1 → Fin 2) hbv bb))
    = mlp v e wa ba wb bb := by
  -- the signs, broadcast to every row
  have hM : broadcastInDim ⟨2, ![T, 4]⟩ (![0, 1] : Fin 2 → Fin 2) hb14 (broadcastInDim ⟨2, ![1, 4]⟩ (![1] : Fin 1 → Fin 2) hb4 c4)
      = fun i => sgn (i 1) := by
    rw [Cert.LibHostLayout.rowAll_eq, Cert.LibHostLayout.vecRow_eq]
    funext i
    exact hc4 (i 1)
  rw [hM]
  -- the sum over a row's four entries
  have hsum : Host.reduceAdd (mulf (mulf v (fun i => sgn (i 1))) v) (constant (F := Ideal) ⟨0, ![]⟩ .f32 0x00000000#32) hr hS
      = fun j => mnorm v (j 0) := by
    funext j
    refine (Ideal.hostReduceAdd_single hr hred _ _ j).trans ?_
    show Ideal.ofBits .f32 0x00000000#32 + _ = _
    rw [Ideal.ofBits_zero_f32, zero_add]
    unfold mnorm
    refine Finset.sum_congr rfl fun k _ => ?_
    rw [Cert.LibRowOps.lift_row hred j k]
    rfl
  rw [hsum, Cert.LibHostLayout.vecCol_eq]
  rw [concat_feat v e (fun i => mnorm v ((ix1 (i 0) : (⟨1, ![T]⟩ : Shape).Idx) 0)) (fun p u => rfl) hcat]
  -- the two layers
  rw [show Host.dotGeneral d1 none (feat v e) wa = MM (feat v e) wa from
    dotGeneral_eq d1 h1lb h1ln h1lc h1rb h1rn h1rc none .single (feat v e) wa]
  have hb : ∀ b : FVec Ideal ⟨1, ![14]⟩ .f32,
      broadcastInDim ⟨2, ![T, 14]⟩ (![0, 1] : Fin 2 → Fin 2) hbr (broadcastInDim ⟨2, ![1, 14]⟩ (![1] : Fin 1 → Fin 2) hbv b)
        = fun i => b (ix1 (i 1)) := by
    intro b
    rw [Cert.LibHostLayout.rowAll_eq, Cert.LibHostLayout.vecRow_eq]
  rw [hb ba, hb bb, Cert.LibHostLayout.splat_eq]
  have h1 : maximumf (addf (MM (feat v e) wa) (fun i => ba (ix1 (i 1)))) (fun _ => constant (F := Ideal) ⟨0, ![]⟩ .f32 0x00000000#32 ix0)
      = relu (layer (feat v e) wa ba) := rfl
  rw [h1]
  rw [show Host.dotGeneral d2 none (relu (layer (feat v e) wa ba)) wb = MM (relu (layer (feat v e) wa ba)) wb from
    dotGeneral_eq d2 h2lb h2ln h2lc h2rb h2rn h2rc none .single (relu (layer (feat v e) wa ba)) wb]
  rfl

end Cert.Lorentz

end
-- ==== Proof.RefMlp.lean ====
/-
  The reference's two host stretches that apply the row network are the function `mlp`: per edge on the gathered
  rows and the edge attributes, per node on the node array and the mean.  The signs' four-entry table holds -1 at
  the time coordinate and +1 at the space coordinates, the same float words the metric's select uses.
-/
import proofs.«139659_j69861938037251_1_alg».proof.Proof.RefStages
import proofs.«139659_j69861938037251_1_alg».proof.Proof.HostMlp

noncomputable section

namespace Cert.ReferenceIdeal.Stages

open Idealize.ShloMosaic Idealize.ShloMosaic.ValueIdx Idealize.SL.Sem
open Cert.ReferenceIdeal
open Cert.ReferenceIdeal.Facts₀ Cert.ReferenceIdeal.Facts

variable [Facts]

/-- The first table of signs, entry by entry. -/
theorem signs0 (l : Fin 4) :
    (fun i => FloatOps.ofBits (F := Ideal) .f32 (lit0 (S4.rowMajor i)) : S4.Idx → EReal) (ix1 l) = Cert.Lorentz.sgn l := by
  fin_cases l <;> rfl

/-- The second table of signs, entry by entry. -/
theorem signs1 (l : Fin 4) :
    (fun i => FloatOps.ofBits (F := Ideal) .f32 (lit1 (S4.rowMajor i)) : S4.Idx → EReal) (ix1 l) = Cert.Lorentz.sgn l := by
  fin_cases l <;> rfl

/-- Per edge: the host's stretch is the row network. -/
theorem edgeMlp_eq (xr : FVec Ideal S6400000x4 .f32) (ea : FVec Ideal S6400000x14 .f32) (wa : FVec Ideal S15x14 .f32)
    (ba : FVec Ideal S14 .f32) (wb : FVec Ideal S14x14 .f32) (bb : FVec Ideal S14 .f32) :
    edgeMlp (F := Ideal) xr ea wa ba wb bb = Cert.Lorentz.mlp xr ea wa ba wb bb := by
  unfold edgeMlp
  exact Cert.Lorentz.host_mlp (T := 6400000) dot_S6400000x15_S15x14_S6400000x14_1_0_0_1_n_n rfl rfl rfl rfl rfl rfl
    dot_S6400000x14_S14x14_S6400000x14_1_0_0_1_n_n rfl rfl rfl rfl rfl rfl
    _ signs0 bcast_S4_S1x4_1 bcast_S1x4_S6400000x4_0_1 reducesTo_S6400000x4_S6400000_d1 (by decide) h_S_
    bcast_S6400000_S6400000x1_0 concatenates_S6400000x1_S6400000x14_S6400000x15_d1 bcast_S14_S1x14_1
    bcast_S1x14_S6400000x14_0_1 bcast_S_S6400000x14 xr ea wa ba wb bb

/-- Per node: the host's stretch is the row network. -/
theorem nodeMlp_eq (x : FVec Ideal S100000x4 .f32) (mean : FVec Ideal S100000x14 .f32) (wa : FVec Ideal S15x14 .f32)
    (ba : FVec Ideal S14 .f32) (wb : FVec Ideal S14x14 .f32) (bb : FVec Ideal S14 .f32) :
    nodeMlp (F := Ideal) x mean wa ba wb bb = Cert.Lorentz.mlp x mean wa ba wb bb := by
  unfold nodeMlp
  exact Cert.Lorentz.host_mlp (T := 100000) dot_S100000x15_S15x14_S100000x14_1_0_0_1_n_n rfl rfl rfl rfl rfl rfl
    dot_S100000x14_S14x14_S100000x14_1_0_0_1_n_n rfl rfl rfl rfl rfl rfl
    _ signs1 bcast_S4_S1x4_1 bcast_S1x4_S100000x4_0_1 reducesTo_S100000x4_S100000_d1 (by decide) h_S_
    bcast_S100000_S100000x1_0 concatenates_S100000x1_S100000x14_S100000x15_d1 bcast_S14_S1x14_1
    bcast_S1x14_S100000x14_0_1 bcast_S_S100000x14 x mean wa ba wb bb

end Cert.ReferenceIdeal.Stages

end
-- ==== Proof.StageBridge.lean ====
/-
  The two programs' shared host stages agree: the kernel program's gather of the rows and per-node mean are the
  reference's, the same operations over the same literal shapes (the two printings' shape names unfold to the same
  literals, their side conditions are proofs, their gather and scatter dimension records have equal fields).
-/
import proofs.«139659_j69861938037251_1_alg».proof.Proof.KStages
import proofs.«139659_j69861938037251_1_alg».proof.Proof.RefStages

noncomputable section

namespace Cert.StageBridge

open Idealize.ShloMosaic Idealize.SL.Sem

variable {F : FTy → Type} [FloatOps F] [Cert.KernelIdeal.Facts] [Cert.ReferenceIdeal.Facts]

attribute [local irreducible] Host.gather in
/-- The gathered rows: both sides unfold to the one gather of the one index column. -/
theorem gatherRows_eq (x : (⟨Cert.KernelIdeal.S100000x4, .f32⟩ : BufTy).Contents (Elt F)) (e : (⟨Cert.KernelIdeal.S2x6400000, .i32⟩ : BufTy).Contents (Elt F)) :
    Cert.KernelIdeal.Stages.gatherRows (F := F) x e = Cert.ReferenceIdeal.Stages.gatherRows x e := by
  unfold Cert.KernelIdeal.Stages.gatherRows Cert.ReferenceIdeal.Stages.gatherRows
  rfl

attribute [local irreducible] Host.scatterAdd in
/-- The per-node mean: both sides unfold to the one quotient of the two scatters. -/
theorem segMean_eq (eo : (⟨Cert.KernelIdeal.S6400000x14, .f32⟩ : BufTy).Contents (Elt F)) (e : (⟨Cert.KernelIdeal.S2x6400000, .i32⟩ : BufTy).Contents (Elt F)) :
    Cert.KernelIdeal.Stages.segMean (F := F) eo e = Cert.ReferenceIdeal.Stages.segMean eo e := by
  unfold Cert.KernelIdeal.Stages.segMean Cert.ReferenceIdeal.Stages.segMean
  rfl

end Cert.StageBridge

end
-- ==== Proof.Bridge.lean ====
/-
  The two programs compute one function.  The reference's result is the host's row network per node on the node
  array and the mean of the host's row network per edge; the kernel program's is the same with each row network
  computed by a kernel over a grid of row blocks.  Both row networks are the function `mlp`; the gather and the
  per-node mean are the same host operations on both sides.
-/
import proofs.«139659_j69861938037251_1_alg».proof.Proof.KValue
import proofs.«139659_j69861938037251_1_alg».proof.Proof.RefMlp
import proofs.«139659_j69861938037251_1_alg».proof.Proof.StageBridge
import proofs.«139659_j69861938037251_1_alg».proof.Proof.Gen.ReferenceIdeal

noncomputable section

namespace Cert.Bridge

open Idealize.ShloMosaic Idealize.SL.Sem

/-- The reference's result is the kernel program's, as functions of the arguments. -/
theorem refOut_eq (x : (⟨Cert.KernelIdeal.S100000x4, .f32⟩ : BufTy).Contents (Elt Ideal)) (e : (⟨Cert.KernelIdeal.S2x6400000, .i32⟩ : BufTy).Contents (Elt Ideal))
    (ea : (⟨Cert.KernelIdeal.S6400000x14, .f32⟩ : BufTy).Contents (Elt Ideal))
    (w1a : (⟨Cert.KernelIdeal.S15x14, .f32⟩ : BufTy).Contents (Elt Ideal)) (b1a : (⟨Cert.KernelIdeal.S14, .f32⟩ : BufTy).Contents (Elt Ideal))
    (w1b : (⟨Cert.KernelIdeal.S14x14, .f32⟩ : BufTy).Contents (Elt Ideal)) (b1b : (⟨Cert.KernelIdeal.S14, .f32⟩ : BufTy).Contents (Elt Ideal))
    (w2a : (⟨Cert.KernelIdeal.S15x14, .f32⟩ : BufTy).Contents (Elt Ideal)) (b2a : (⟨Cert.KernelIdeal.S14, .f32⟩ : BufTy).Contents (Elt Ideal))
    (w2b : (⟨Cert.KernelIdeal.S14x14, .f32⟩ : BufTy).Contents (Elt Ideal)) (b2b : (⟨Cert.KernelIdeal.S14, .f32⟩ : BufTy).Contents (Elt Ideal)) :
    Cert.ReferenceIdeal.Stages.refOut (F := Ideal) x e ea w1a b1a w1b b1b w2a b2a w2b b2b
      = Cert.KernelIdeal.Hand.kernelOut x e ea w1a b1a w1b b1b w2a b2a w2b b2b := by
  unfold Cert.ReferenceIdeal.Stages.refOut Cert.KernelIdeal.Hand.kernelOut
  rw [Cert.ReferenceIdeal.Stages.nodeMlp_eq, Cert.ReferenceIdeal.Stages.edgeMlp_eq,
    Cert.StageBridge.gatherRows_eq x e, Cert.StageBridge.segMean_eq _ e]

end Cert.Bridge

end
-- ==== Proof.lean ====
/-
  The certificate of the Lorentz node block: a message-passing layer over 100000 nodes and 6400000 edges.  Per edge,
  the Minkowski square of the source node's four-vector (metric diag(-1, 1, 1, 1)) is set in front of the edge's
  fourteen attributes and passed through a two-layer network with a maximum against zero between the layers; the edge
  outputs are averaged per destination node (the count clipped below at one); per node, the Minkowski square of
  the node's own four-vector is set in front of that mean and passed through a second two-layer network.

  The kernel program computes the two networks in two kernels over grids of row blocks (1000 blocks of 6400 edges,
  20 blocks of 5000 nodes) and leaves the gather and the per-node mean to the host; the reference computes all of
  it on the host.  On the extended reals the two are one function of the arguments: a change of float format is the
  identity, a matmul into a zero accumulator and a dot_general are the same sums of the same products, a lane sum
  from the zero word and a host reduce from zero are the same sum, and a grid of row blocks tiles the rows.  No law
  of the extended reals beyond 0 + x = x is used, so the inputs' finiteness is never opened.

  The three frames: the two kernel programs' are the generated frame certificates; the reference has no kernel and
  its frame is its run with the result dropped.  The idealization rewrote no operation, so `preserves` is trivial.
-/
import proofs.«139659_j69861938037251_1_alg».proof.Defs
import proofs.«139659_j69861938037251_1_alg».proof.Proof.Gen.Kernel
import proofs.«139659_j69861938037251_1_alg».proof.Proof.Gen.Kernel.Skeleton
import proofs.«139659_j69861938037251_1_alg».proof.Proof.Gen.Kernel.Launch
import proofs.«139659_j69861938037251_1_alg».proof.Proof.Gen.Kernel.Points
import proofs.«139659_j69861938037251_1_alg».proof.Proof.Gen.Kernel.Frame
import proofs.«139659_j69861938037251_1_alg».proof.Proof.Gen.KernelIdeal
import proofs.«139659_j69861938037251_1_alg».proof.Proof.Gen.KernelIdeal.Skeleton
import proofs.«139659_j69861938037251_1_alg».proof.Proof.Gen.KernelIdeal.Launch
import proofs.«139659_j69861938037251_1_alg».proof.Proof.Gen.KernelIdeal.Points
import proofs.«139659_j69861938037251_1_alg».proof.Proof.Gen.KernelIdeal.Frame
import proofs.«139659_j69861938037251_1_alg».proof.Proof.Gen.ReferenceIdeal
import proofs.«139659_j69861938037251_1_alg».proof.Proof.Gen.Pre_finite_inputs
import proofs.«139659_j69861938037251_1_alg».proof.Proof.RefRun
import proofs.«139659_j69861938037251_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_reference : Cert.frame_ReferenceIdeal := fun m ρ _ =>
  (θ_run Cert.ReferenceIdeal.defs _ _).mono (fun _ h c => (h c).2) (Cert.ReferenceIdeal.HandRun.run (F := Ideal) m ρ)

/-- Both idealized programs end with the result at one function of the arguments: the kernel program's run read
    back through its two regions, the reference's run read as its four stages, and the two functions equal. -/
theorem algebraic : Cert.algebraic_KernelIdeal_ReferenceIdeal := by
  intro m ρ m' ρ' _ hagree
  refine ⟨fun c => Cert.KernelIdeal.Hand.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun _ h c => ⟨(h c).1.trans (Cert.KernelIdeal.Hand.result_eq m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.HandRun.run (F := Ideal) m' ρ')
    obtain ⟨e0, e1, e2, -, -, e5, e6, e7, e8, e9, e10, e11, e12⟩ := hagree c
    rw [e0, e1, e2, e5, e6, e7, e8, e9, e10, e11, e12]
    exact Cert.Bridge.refOut_eq _ _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
